-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3x3 : Shape := ⟨3, ![4194304, 3, 3]⟩
abbrev S4194304 : Shape := ⟨1, ![4194304]⟩
abbrev S_ : Shape := ⟨0, ![]⟩

class Facts : Prop where
  bcast_S_S4194304x3x3 : S_.BroadcastsInDim S4194304x3x3 (![] : Fin 0 → Fin S4194304x3x3.rank)
  reducesTo_S4194304x3x3_S_d0_1_2 : S4194304x3x3.ReducesTo [0, 1, 2] S_
  h_S_ : 0 < S_.numel

variable [Facts]

def fn {F : FTy → Type} [FloatOps F] (main_arg0 : FVec F S4194304x3x3 .f32) (main_arg1 : FVec F S4194304x3x3 .f32) (main_arg2 : IVec S4194304 32) (main_arg3 : IVec S4194304 32) : IVec S_ 1 :=
  let main_v0 : FVec F S4194304x3x3 .f32 := Host.absf main_arg0
  let main_cst : FVec F S_ .f32 := constant S_ .f32 0x7F800000#32
  let main_v1 : FVec F S4194304x3x3 .f32 := broadcastInDim S4194304x3x3 ![] bcast_S_S4194304x3x3 main_cst
  let main_v2 : IVec S4194304x3x3 1 := cmpf .olt main_v0 main_v1
  let main_c : IVec S_ 1 := constantI S_ 1 1#1
  let main_v3 : IVec S_ 1 := (fun x v => Host.reduce IntOp.andi x v reducesTo_S4194304x3x3_S_d0_1_2 h_S_) main_v2 main_c
  let main_v4 : FVec F S4194304x3x3 .f32 := Host.absf main_arg1
  let main_cst_0 : FVec F S_ .f32 := constant S_ .f32 0x7F800000#32
  let main_v5 : FVec F S4194304x3x3 .f32 := broadcastInDim S4194304x3x3 ![] bcast_S_S4194304x3x3 main_cst_0
  let main_v6 : IVec S4194304x3x3 1 := cmpf .olt main_v4 main_v5
  let main_c_1 : IVec S_ 1 := constantI S_ 1 1#1
  let main_v7 : IVec S_ 1 := (fun x v => Host.reduce IntOp.andi x v reducesTo_S4194304x3x3_S_d0_1_2 h_S_) main_v6 main_c_1
  let main_v8 : IVec S_ 1 := andi main_v3 main_v7
  main_v8
-- ==== Kernel.lean ====
abbrev S4194304x3x3 : Shape := ⟨3, ![4194304, 3, 3]⟩
abbrev S4194304 : Shape := ⟨1, ![4194304]⟩
abbrev S4194304x9 : Shape := ⟨2, ![4194304, 9]⟩
abbrev S4194304x3 : Shape := ⟨2, ![4194304, 3]⟩
abbrev S8192x9 : Shape := ⟨2, ![8192, 9]⟩
abbrev S8192x3 : Shape := ⟨2, ![8192, 3]⟩
abbrev S_ : Shape := ⟨0, ![]⟩
abbrev S4194304x1 : Shape := ⟨2, ![4194304, 1]⟩
abbrev S1x1 : Shape := ⟨2, ![1, 1]⟩
abbrev S8192 : Shape := ⟨1, ![8192]⟩
abbrev S8192x1 : Shape := ⟨2, ![8192, 1]⟩
abbrev S1 : Shape := ⟨1, ![1]⟩

abbrev nBuf : Space → Nat
  | .hbm => 46
  | .vmem => 18
  | .smem => 0
  | _ => 0

abbrev bufTy : (tb : Table) → Fin (tcTables nBuf tb) → BufTy
  | .hbm, ⟨0, _⟩ => ⟨S4194304x3x3, .f32⟩
  | .hbm, ⟨1, _⟩ => ⟨S4194304x3x3, .f32⟩
  | .hbm, ⟨2, _⟩ => ⟨S4194304, .i32⟩
  | .hbm, ⟨3, _⟩ => ⟨S4194304, .i32⟩
  | .hbm, ⟨4, _⟩ => ⟨S4194304x9, .f32⟩
  | .hbm, ⟨5, _⟩ => ⟨S4194304x9, .f32⟩
  | .hbm, ⟨6, _⟩ => ⟨S4194304x3, .f32⟩
  | .hbm, ⟨7, _⟩ => ⟨S4194304x3, .f32⟩
  | .hbm, ⟨8, _⟩ => ⟨S_, .i32⟩
  | .hbm, ⟨9, _⟩ => ⟨S4194304, .i32⟩
  | .hbm, ⟨10, _⟩ => ⟨S4194304, .i1⟩
  | .hbm, ⟨11, _⟩ => ⟨S_, .i32⟩
  | .hbm, ⟨12, _⟩ => ⟨S4194304, .i32⟩
  | .hbm, ⟨13, _⟩ => ⟨S4194304, .i32⟩
  | .hbm, ⟨14, _⟩ => ⟨S4194304, .i32⟩
  | .hbm, ⟨15, _⟩ => ⟨S4194304x1, .i32⟩
  | .hbm, ⟨16, _⟩ => ⟨S4194304x3, .f32⟩
  | .hbm, ⟨17, _⟩ => ⟨S_, .i32⟩
  | .hbm, ⟨18, _⟩ => ⟨S4194304, .i32⟩
  | .hbm, ⟨19, _⟩ => ⟨S4194304, .i1⟩
  | .hbm, ⟨20, _⟩ => ⟨S_, .i32⟩
  | .hbm, ⟨21, _⟩ => ⟨S4194304, .i32⟩
  | .hbm, ⟨22, _⟩ => ⟨S4194304, .i32⟩
  | .hbm, ⟨23, _⟩ => ⟨S4194304, .i32⟩
  | .hbm, ⟨24, _⟩ => ⟨S4194304x1, .i32⟩
  | .hbm, ⟨25, _⟩ => ⟨S4194304x3, .f32⟩
  | .hbm, ⟨26, _⟩ => ⟨S_, .i32⟩
  | .hbm, ⟨27, _⟩ => ⟨S4194304, .i32⟩
  | .hbm, ⟨28, _⟩ => ⟨S4194304, .i1⟩
  | .hbm, ⟨29, _⟩ => ⟨S_, .i32⟩
  | .hbm, ⟨30, _⟩ => ⟨S4194304, .i32⟩
  | .hbm, ⟨31, _⟩ => ⟨S4194304, .i32⟩
  | .hbm, ⟨32, _⟩ => ⟨S4194304, .i32⟩
  | .hbm, ⟨33, _⟩ => ⟨S4194304x1, .i32⟩
  | .hbm, ⟨34, _⟩ => ⟨S4194304x3, .f32⟩
  | .hbm, ⟨35, _⟩ => ⟨S_, .i32⟩
  | .hbm, ⟨36, _⟩ => ⟨S4194304, .i32⟩
  | .hbm, ⟨37, _⟩ => ⟨S4194304, .i1⟩
  | .hbm, ⟨38, _⟩ => ⟨S_, .i32⟩
  | .hbm, ⟨39, _⟩ => ⟨S4194304, .i32⟩
  | .hbm, ⟨40, _⟩ => ⟨S4194304, .i32⟩
  | .hbm, ⟨41, _⟩ => ⟨S4194304, .i32⟩
  | .hbm, ⟨42, _⟩ => ⟨S4194304x1, .i32⟩
  | .hbm, ⟨43, _⟩ => ⟨S4194304x3, .f32⟩
  | .hbm, ⟨44, _⟩ => ⟨S1x1, .f32⟩
  | .hbm, ⟨45, _⟩ => ⟨S_, .f32⟩
  | .local _ .vmem, ⟨0, _⟩ => ⟨S8192x9, .f32⟩
  | .local _ .vmem, ⟨1, _⟩ => ⟨S8192x9, .f32⟩
  | .local _ .vmem, ⟨2, _⟩ => ⟨S8192x9, .f32⟩
  | .local _ .vmem, ⟨3, _⟩ => ⟨S8192x9, .f32⟩
  | .local _ .vmem, ⟨4, _⟩ => ⟨S8192x3, .f32⟩
  | .local _ .vmem, ⟨5, _⟩ => ⟨S8192x3, .f32⟩
  | .local _ .vmem, ⟨6, _⟩ => ⟨S8192x3, .f32⟩
  | .local _ .vmem, ⟨7, _⟩ => ⟨S8192x3, .f32⟩
  | .local _ .vmem, ⟨8, _⟩ => ⟨S8192x3, .f32⟩
  | .local _ .vmem, ⟨9, _⟩ => ⟨S8192x3, .f32⟩
  | .local _ .vmem, ⟨10, _⟩ => ⟨S8192x3, .f32⟩
  | .local _ .vmem, ⟨11, _⟩ => ⟨S8192x3, .f32⟩
  | .local _ .vmem, ⟨12, _⟩ => ⟨S8192x3, .f32⟩
  | .local _ .vmem, ⟨13, _⟩ => ⟨S8192x3, .f32⟩
  | .local _ .vmem, ⟨14, _⟩ => ⟨S8192x3, .f32⟩
  | .local _ .vmem, ⟨15, _⟩ => ⟨S8192x3, .f32⟩
  | .local _ .vmem, ⟨16, _⟩ => ⟨S1x1, .f32⟩
  | .local _ .vmem, ⟨17, _⟩ => ⟨S1x1, .f32⟩
  | _, _ => ⟨S4194304x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![512], ![false]⟩

def k1_cond2 (i : grid1.Coords) : BitVec 1 :=
  let arg0 : BitVec 32 := BitVec.ofNat 32 (i 0).val
  let c511_i32 : BitVec 32 := 511#32
  let v30 : BitVec 1 := Scalar.cmpi .eq arg0 c511_i32
  let v31 : BitVec 32 := Scalar.extui v30
  let c0_i32_14 : BitVec 32 := 0#32
  let v32 : BitVec 1 := Scalar.cmpi .ne v31 c0_i32_14
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S4194304x3x3_S4194304x9 : S4194304x3x3.ShapeCasts S4194304x9
  inb_S8192x9_S8192x9_0_0 : ∀ a, (![0, 0] : Fin 2 → Nat) a + S8192x9.size a ≤ S8192x9.size a
  h_S8192x9 : 0 < S8192x9.numel
  shapeCasts_S8192x9_S8192x9 : S8192x9.ShapeCasts S8192x9
  slices_S8192x9_o0_3_S8192x3 : S8192x9.Slices ![0, 3] S8192x3
  inb_S8192x3_S8192x3_0_0 : ∀ a, (![0, 0] : Fin 2 → Nat) a + S8192x3.size a ≤ S8192x3.size a
  h_S8192x3 : 0 < S8192x3.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S8192x3_S8192x3 : S8192x3.ShapeCasts S8192x3
  reduces_S8192x3_S8192 : S8192x3.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  gather_S4194304x3_S4194304x1_S4194304x3_1_0_n_n_0_1_13_wf : GatherDims.WF S4194304x3 S4194304x1 S4194304x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x9.size a ≤ S4194304x9.size a
  hwx0_0 : ∀ i : grid0.Coords, EltTy.bits .f32 = 32 ∨ (Rect.block (s := S4194304x9) S8192x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x9.size a ≤ S4194304x9.size a
  hwx0_1 : ∀ i : grid0.Coords, EltTy.bits .f32 = 32 ∨ (Rect.block (s := S4194304x9) S8192x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x3.size a ≤ S4194304x3.size a
  hwx0_2 : ∀ i : grid0.Coords, EltTy.bits .f32 = 32 ∨ (Rect.block (s := S4194304x3) S8192x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x3.size a ≤ S4194304x3.size a
  hwx0_3 : ∀ i : grid0.Coords, EltTy.bits .f32 = 32 ∨ (Rect.block (s := S4194304x3) S8192x3.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x3.size a ≤ S4194304x3.size a
  hwx1_0 : ∀ i : grid1.Coords, EltTy.bits .f32 = 32 ∨ (Rect.block (s := S4194304x3) S8192x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x3.size a ≤ S4194304x3.size a
  hwx1_1 : ∀ i : grid1.Coords, EltTy.bits .f32 = 32 ∨ (Rect.block (s := S4194304x3) S8192x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x3.size a ≤ S4194304x3.size a
  hwx1_2 : ∀ i : grid1.Coords, EltTy.bits .f32 = 32 ∨ (Rect.block (s := S4194304x3) S8192x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x3.size a ≤ S4194304x3.size a
  hwx1_3 : ∀ i : grid1.Coords, EltTy.bits .f32 = 32 ∨ (Rect.block (s := S4194304x3) S8192x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def gather_S4194304x3_S4194304x1_S4194304x3_1_0_n_n_0_1_13 : GatherDims S4194304x3 S4194304x1 S4194304x3 where
  offsetDims := [1]
  collapsedSliceDims := [0]
  operandBatchingDims := []
  startIndicesBatchingDims := []
  startIndexMap := [0]
  indexVectorDim := 1
  sliceSizes := ![1, 3]
  wf := gather_S4194304x3_S4194304x1_S4194304x3_1_0_n_n_0_1_13_wf

abbrev win0_0 : Pipeline.Window sig grid0 :=
  Pipeline.Window.ofSpec (Memref.whole main_v0) S8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8192x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8192x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S8192x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S8192x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S8192x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S8192x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4194304x3x3 : Shape := ⟨3, ![4194304, 3, 3]⟩
abbrev S4194304 : Shape := ⟨1, ![4194304]⟩
abbrev S4194304x1x3 : Shape := ⟨3, ![4194304, 1, 3]⟩
abbrev S4194304x3 : Shape := ⟨2, ![4194304, 3]⟩
abbrev S_ : Shape := ⟨0, ![]⟩
abbrev S4194304x1 : Shape := ⟨2, ![4194304, 1]⟩

abbrev nBuf : Space → Nat
  | .hbm => 60
  | .vmem => 0
  | .smem => 0
  | _ => 0

abbrev bufTy : (tb : Table) → Fin (tcTables nBuf tb) → BufTy
  | .hbm, ⟨0, _⟩ => ⟨S4194304x3x3, .f32⟩
  | .hbm, ⟨1, _⟩ => ⟨S4194304x3x3, .f32⟩
  | .hbm, ⟨2, _⟩ => ⟨S4194304, .i32⟩
  | .hbm, ⟨3, _⟩ => ⟨S4194304, .i32⟩
  | .hbm, ⟨4, _⟩ => ⟨S4194304x1x3, .f32⟩
  | .hbm, ⟨5, _⟩ => ⟨S4194304x3, .f32⟩
  | .hbm, ⟨6, _⟩ => ⟨S4194304x1x3, .f32⟩
  | .hbm, ⟨7, _⟩ => ⟨S4194304x3, .f32⟩
  | .hbm, ⟨8, _⟩ => ⟨S_, .i32⟩
  | .hbm, ⟨9, _⟩ => ⟨S4194304, .i32⟩
  | .hbm, ⟨10, _⟩ => ⟨S4194304, .i1⟩
  | .hbm, ⟨11, _⟩ => ⟨S_, .i32⟩
  | .hbm, ⟨12, _⟩ => ⟨S4194304, .i32⟩
  | .hbm, ⟨13, _⟩ => ⟨S4194304, .i32⟩
  | .hbm, ⟨14, _⟩ => ⟨S4194304, .i32⟩
  | .hbm, ⟨15, _⟩ => ⟨S4194304x1, .i32⟩
  | .hbm, ⟨16, _⟩ => ⟨S4194304x3, .f32⟩
  | .hbm, ⟨17, _⟩ => ⟨S_, .i32⟩
  | .hbm, ⟨18, _⟩ => ⟨S4194304, .i32⟩
  | .hbm, ⟨19, _⟩ => ⟨S4194304, .i1⟩
  | .hbm, ⟨20, _⟩ => ⟨S_, .i32⟩
  | .hbm, ⟨21, _⟩ => ⟨S4194304, .i32⟩
  | .hbm, ⟨22, _⟩ => ⟨S4194304, .i32⟩
  | .hbm, ⟨23, _⟩ => ⟨S4194304, .i32⟩
  | .hbm, ⟨24, _⟩ => ⟨S4194304x1, .i32⟩
  | .hbm, ⟨25, _⟩ => ⟨S4194304x3, .f32⟩
  | .hbm, ⟨26, _⟩ => ⟨S4194304x3, .f32⟩
  | .hbm, ⟨27, _⟩ => ⟨S4194304x3, .f32⟩
  | .hbm, ⟨28, _⟩ => ⟨S_, .f32⟩
  | .hbm, ⟨29, _⟩ => ⟨S4194304, .f32⟩
  | .hbm, ⟨30, _⟩ => ⟨S4194304, .f32⟩
  | .hbm, ⟨31, _⟩ => ⟨S_, .i32⟩
  | .hbm, ⟨32, _⟩ => ⟨S4194304, .i32⟩
  | .hbm, ⟨33, _⟩ => ⟨S4194304, .i1⟩
  | .hbm, ⟨34, _⟩ => ⟨S_, .i32⟩
  | .hbm, ⟨35, _⟩ => ⟨S4194304, .i32⟩
  | .hbm, ⟨36, _⟩ => ⟨S4194304, .i32⟩
  | .hbm, ⟨37, _⟩ => ⟨S4194304, .i32⟩
  | .hbm, ⟨38, _⟩ => ⟨S4194304x1, .i32⟩
  | .hbm, ⟨39, _⟩ => ⟨S4194304x3, .f32⟩
  | .hbm, ⟨40, _⟩ => ⟨S_, .i32⟩
  | .hbm, ⟨41, _⟩ => ⟨S4194304, .i32⟩
  | .hbm, ⟨42, _⟩ => ⟨S4194304, .i1⟩
  | .hbm, ⟨43, _⟩ => ⟨S_, .i32⟩
  | .hbm, ⟨44, _⟩ => ⟨S4194304, .i32⟩
  | .hbm, ⟨45, _⟩ => ⟨S4194304, .i32⟩
  | .hbm, ⟨46, _⟩ => ⟨S4194304, .i32⟩
  | .hbm, ⟨47, _⟩ => ⟨S4194304x1, .i32⟩
  | .hbm, ⟨48, _⟩ => ⟨S4194304x3, .f32⟩
  | .hbm, ⟨49, _⟩ => ⟨S4194304x3, .f32⟩
  | .hbm, ⟨50, _⟩ => ⟨S4194304x3, .f32⟩
  | .hbm, ⟨51, _⟩ => ⟨S_, .f32⟩
  | .hbm, ⟨52, _⟩ => ⟨S4194304, .f32⟩
  | .hbm, ⟨53, _⟩ => ⟨S4194304, .f32⟩
  | .hbm, ⟨54, _⟩ => ⟨S4194304, .f32⟩
  | .hbm, ⟨55, _⟩ => ⟨S4194304, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4194304x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  slices_S4194304x3x3_S4194304x1x3_0_1_0 : S4194304x3x3.Slices ![0, 1, 0] S4194304x1x3
  shapeCasts_S4194304x1x3_S4194304x3 : S4194304x1x3.ShapeCasts S4194304x3
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S4194304x3_S4194304_d1 : S4194304x3.ReducesTo [1] S4194304
  h_S_ : 0 < S_.numel
  reducesTo_S4194304_S_d0 : S4194304.ReducesTo [0] S_
  gather_S4194304x3_S4194304x1_S4194304x3_1_0_n_n_0_1_13_wf : GatherDims.WF S4194304x3 S4194304x1 S4194304x3 [1] [0] [] [0] [] 1 ![1, 3]

variable [Facts₀]

def gather_S4194304x3_S4194304x1_S4194304x3_1_0_n_n_0_1_13 : GatherDims S4194304x3 S4194304x1 S4194304x3 where
  offsetDims := [1]
  collapsedSliceDims := [0]
  operandBatchingDims := []
  startIndicesBatchingDims := []
  startIndexMap := [0]
  indexVectorDim := 1
  sliceSizes := ![1, 3]
  wf := gather_S4194304x3_S4194304x1_S4194304x3_1_0_n_n_0_1_13_wf

class Facts : Prop extends Facts₀ where

variable [Facts]
-- ==== Proof.WordExtractRegion.lean ====
/-
  (The same statements for the kernel as printed, read at the word level: the text of the program is the same.)
  The extraction region (the first kernel launch), at any contents `V` of the core's buffers when it is entered.
  At grid point `t` the body reads rows 8192·t … 8192·t+8191 of the two flattened frame arrays (nine columns each)
  and stores, whole, columns 3, 4, 5 of those rows — the middle row of each 3×3 frame — into the two result blocks.
  Stated here: what each result block holds after the body as a function of the input block, the body's triple,
  and the proof data of the pipeline (inputs left in place, outputs at that function of the inputs, nothing carried
  from point to point).
-/
import proofs.«168992_j31164282699885_2_alg».proof.Proof.Gen.Kernel.Launch
import proofs.«168992_j31164282699885_2_alg».proof.Proof.Gen.Kernel.Skeleton
import proofs.«168992_j31164282699885_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Extract

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (the index moves at every point, the
    window is never idle and never cut). -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole 8192×9 input block and the whole 8192×3 result block, as rectangles. -/
abbrev whole9 : Rect S8192x9 := Rect.unit (s := S8192x9) ![0, 0] S8192x9.size inb_S8192x9_S8192x9_0_0
abbrev whole3 : Rect S8192x3 := Rect.unit (s := S8192x3) ![0, 0] S8192x3.size inb_S8192x3_S8192x3_0_0

/-- What the body leaves in the first result block: columns 3–5 of the first input block, stored whole. -/
def mid0 (x0 : Vec F S8192x9 .f32) : Vec F S8192x3 .f32 :=
  View.canon [⟨whole3, k0_pay1 (View.ld x0 whole9)⟩]
/-- What the body leaves in the second result block: columns 3–5 of the second input block, stored whole. -/
def mid1 (x1 : Vec F S8192x9 .f32) : Vec F S8192x3 .f32 :=
  View.canon [⟨whole3, k0_pay2 (View.ld x1 whole9)⟩]

/-- One whole-block store covers the block. -/
theorem cover3 (p0 : Vec F S8192x3 .f32) (y : S8192x3.Idx) :
    ∃ pc ∈ ([⟨whole3, p0⟩] : List (View.Piece (Elt F) S8192x3 .f32)), y ∈ pc.1.set :=
  View.cover_of_tiled [⟨whole3, p0⟩] S8192x3.size (by rfl) y

set_option maxHeartbeats 1000000 in
/-- The body on whole staging buffers: the inputs at `x0`, `x1`, the outputs at anything; it ends with the inputs as
    they were and the outputs at `mid0 x0`, `mid1 x1`. -/
theorem sound_kernel (c : Dev nD) (E : Set ℕ) (i : grid0.Coords) (arg1 : Memref sig .tc .vmem S8192x9 .f32) (harg1 : arg1.IsWhole) (arg2 : Memref sig .tc .vmem S8192x9 .f32) (harg2 : arg2.IsWhole)
    (arg3 : Memref sig .tc .vmem S8192x3 .f32) (harg3 : arg3.IsWhole) (arg4 : Memref sig .tc .vmem S8192x3 .f32) (harg4 : arg4.IsWhole)
    (x0 x1 : Vec F S8192x9 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (mid0 x0) ∗ owns (c : Thread nD τ) arg4 fullShare (mid1 x1)) -∗ K ⟨⟩))
      ⊢ wp frame (wpE (defs₀ (F := F)) Variants.none c none) E (cc0__extract_kernel i arg1 harg1 arg2 harg2 arg3 harg3 arg4 harg4) K := by
  simp only [cc0__extract_kernel_eq_skeleton]; unfold cc0__extract_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3 _)
  iexists _; isplitr
  swap; · iexact H3
  ipureintro
  exact View.read_writes_eq_canon _ _ _ (cover3 _)

/-- The pipeline's proof data on core `c`: the arrays as the region finds them; after the body at point `t` each
    input's buffer at its block and each output's at the middle columns of the matching input block; the invariant
    the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => mid0 (blk V c 0 t)
    | ⟨3, _⟩ => mid1 (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = mid0 (blk V c 0 t) := by dsimp only [dat]
theorem after_3 (c : Dev nD) (t : Fin cfg0.N) : (dat V c).after 3 t = mid1 (blk V c 1 t) := by dsimp only [dat]

theorem before_0 (c : Dev nD) (t : Fin cfg0.N) (d) : (dat V c).before 0 t d = blk V c 0 t :=
  before_in0 V (dat V c) (A_eq V c 0) (after_0 V c) t d
theorem before_1 (c : Dev nD) (t : Fin cfg0.N) (d) : (dat V c).before 1 t d = blk V c 1 t :=
  before_in1 V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Extract

end
-- ==== Proof.WordReduceBody.lean ====
/-
  (The same statements for the kernel as printed, read at the word level: the text of the program is the same.)
  The reduction region (the second kernel launch), at any contents `V` of the core's buffers when it is entered.
  At grid point `t` the body reads rows 8192·t … 8192·t+8191 of the four gathered coordinate arrays, forms for each
  row the squared difference of the two distances, sums the 8192 rows, and adds the sum to a one-element accumulator
  it keeps between points: the accumulator is set to zero at the first point, and at the last point the body also
  stores the accumulator times 2⁻²² into the one-element result block. So there are three cases of the body —
  the first point, the last point, a point in between —, and what the accumulator holds after point `t` is defined
  by recursion on `t`. Stated here: the body's triple in each case, the accumulator point by point, the region's
  invariant (the accumulator at its value after the point before), and the proof data of the pipeline.
-/
import proofs.«168992_j31164282699885_2_alg».proof.Proof.Gen.Kernel.Launch
import proofs.«168992_j31164282699885_2_alg».proof.Proof.Gen.Kernel.Skeleton
import proofs.«168992_j31164282699885_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- "This is the first point": the condition under which the body zeroes the accumulator. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)
/-- "This is the last point": the condition under which the body stores the result. -/
abbrev isLast (i : grid1.Coords) : Prop := k1_cond2 i = 1#1
theorem isLast_iff : ∀ t : Fin cfg1.N, isLast (grid1.coords t) ↔ t.val = 511 :=
  (by decide +kernel : ∀ t : Fin grid1.N, isLast (grid1.coords t) ↔ t.val = 511)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Away from the last point the result window is idle and is not written back. -/
theorem idle4 : ∀ t : Fin cfg1.N, ¬isLast (grid1.coords t) → cfg1.idle 4 (grid1.coords t) = true := by decide +kernel
theorem noFlush4 : ∀ t : Fin cfg1.N, ¬isLast (grid1.coords t) → (cfg1.win 4).flush t = false := by decide +kernel
theorem live4 : ∀ t : Fin cfg1.N, isLast (grid1.coords t) → cfg1.idle 4 (grid1.coords t) = false := by decide +kernel

/-! ## The memrefs the body is called with -/

/-- The result window's one staging buffer and the accumulator, as views: their contents are stated through them. -/
abbrev VO : View sig .tc .vmem S1x1 .f32 := (Memref.whole cc1_stg4_0 : Memref sig .tc .vmem S1x1 .f32).view
abbrev scM : Memref sig .tc .vmem S1x1 .f32 := Memref.whole cc1_scratch0
abbrev VS : View sig .tc .vmem S1x1 .f32 := scM.view
abbrev ms0 (t : Fin cfg1.N) : Memref sig .tc .vmem S8192x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x3 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S8192x3 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S8192x3 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1 .f32 := win1_4.stage (cfg1.slots t 4)
abbrev hs4 (t : Fin cfg1.N) : (ms4 t).IsWhole := hstage1_4 ((cfg1.slots t 4).cast nbuf1_4)

/-! ## The body's triple, case by case -/

set_option maxHeartbeats 1000000 in
/-- THE FIRST POINT. The inputs at `x0 … x3`, the result buffer (idle here) at `xi` and handed back untouched, the
    accumulator at anything: the body ends with the accumulator at its stores' pieces `LS` (found by running it). -/
noncomputable def runFirst (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 x2 x3 : Vec F S8192x3 .f32) :
    Σ' (L4 : List (View.Piece (Elt F) S1x1 .f32)), { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__mse_kernel i arg1 harg1 arg2 harg2 arg3 harg3 arg4 harg4 arg5 harg5 arg6 harg6) K } := by
  refine ⟨[], ?_, fun xi E K => ?run⟩
  case run =>
    simp only [cc1__mse_kernel_eq_skeleton]; unfold cc1__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 1000000 in
/-- A POINT IN BETWEEN. As the first point, but the accumulator comes in at `xs`, what the point before left. -/
noncomputable def runMid (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 x2 x3 : Vec F S8192x3 .f32) (xs : Vec F S1x1 .f32) :
    Σ' (L4 : List (View.Piece (Elt F) S1x1 .f32)), { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__mse_kernel i arg1 harg1 arg2 harg2 arg3 harg3 arg4 harg4 arg5 harg5 arg6 harg6) K } := by
  refine ⟨[], ?_, fun xi E K => ?run⟩
  case run =>
    simp only [cc1__mse_kernel_eq_skeleton]; unfold cc1__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 1000000 in
/-- THE LAST POINT. The accumulator comes in at `xs`; the result buffer comes in at anything and ends at its
    store's pieces `L4`, the accumulator at `LS`. -/
noncomputable def runLast (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc1__mse_kernel i arg1 harg1 arg2 harg2 arg3 harg3 arg4 harg4 arg5 harg5 arg6 harg6) K } := by
  refine ⟨?_, ?_, fun E K => ?run⟩
  case run =>
    simp only [cc1__mse_kernel_eq_skeleton]; unfold cc1__mse_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Reduce

end
-- ==== Proof.WordReduceRegion.lean ====
/-
  (The same statements for the kernel as printed, read at the word level: the text of the program is the same.)
  The reduction region, continued: what the accumulator holds after each point (by recursion on the point: the
  first point's value, then each point's value over the one before), the region's invariant (the scoped buffers the
  region does not stage at anything, the generator register at some state, and the accumulator — at anything before
  the first point, afterwards at its value after the point before), the proof data and the body obligation.
-/
import proofs.«168992_j31164282699885_2_alg».proof.Proof.WordReduceBody

set_option maxRecDepth 16384

noncomputable section

namespace Cert.Kernel.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## What each case leaves in the accumulator and in the result buffer -/

theorem coverFirst (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 x2 x3 : Vec F S8192x3 .f32) (y : S1x1.Idx) :
    ∃ pc ∈ (runFirst c i arg1 harg1 arg2 harg2 arg3 harg3 arg4 harg4 arg5 harg5 arg6 harg6 hc0 hc1 x0 x1 x2 x3).2.1, y ∈ pc.1.set :=
  View.cover_of_tiledL (runFirst c i arg1 harg1 arg2 harg2 arg3 harg3 arg4 harg4 arg5 harg5 arg6 harg6 hc0 hc1 x0 x1 x2 x3).2.1 S1x1.size (by sl_kernel_rfl) y
/-- The accumulator after the first point. -/
def accFirst (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 x2 x3 : Vec F S8192x3 .f32) : Vec F S1x1 .f32 :=
  VS.read (Elt F) (VS.writes (Elt F) VS.junk (runFirst c i arg1 harg1 arg2 harg2 arg3 harg3 arg4 harg4 arg5 harg5 arg6 harg6 hc0 hc1 x0 x1 x2 x3).2.1)

theorem coverMid (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 x2 x3 : Vec F S8192x3 .f32) (xs : Vec F S1x1 .f32) (y : S1x1.Idx) :
    ∃ pc ∈ (runMid c i arg1 harg1 arg2 harg2 arg3 harg3 arg4 harg4 arg5 harg5 arg6 harg6 hc0 hc1 x0 x1 x2 x3 xs).2.1, y ∈ pc.1.set :=
  View.cover_of_tiledL (runMid c i arg1 harg1 arg2 harg2 arg3 harg3 arg4 harg4 arg5 harg5 arg6 harg6 hc0 hc1 x0 x1 x2 x3 xs).2.1 S1x1.size (by sl_kernel_rfl) y
/-- The accumulator after a point in between, over what the point before left (`xs`). -/
def accMid (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 x2 x3 : Vec F S8192x3 .f32) (xs : Vec F S1x1 .f32) : Vec F S1x1 .f32 :=
  VS.read (Elt F) (VS.writes (Elt F) VS.junk (runMid c i arg1 harg1 arg2 harg2 arg3 harg3 arg4 harg4 arg5 harg5 arg6 harg6 hc0 hc1 x0 x1 x2 x3 xs).2.1)

theorem coverLastAcc (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) (y : S1x1.Idx) :
    ∃ pc ∈ (runLast c i arg1 harg1 arg2 harg2 arg3 harg3 arg4 harg4 arg5 harg5 arg6 harg6 hc0 hc1 x0 x1 x2 x3 xs).2.1, y ∈ pc.1.set :=
  View.cover_of_tiledL (runLast c i arg1 harg1 arg2 harg2 arg3 harg3 arg4 harg4 arg5 harg5 arg6 harg6 hc0 hc1 x0 x1 x2 x3 xs).2.1 S1x1.size (by sl_kernel_rfl) y
/-- The accumulator after the last point. -/
def accLast (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) : Vec F S1x1 .f32 :=
  VS.read (Elt F) (VS.writes (Elt F) VS.junk (runLast c i arg1 harg1 arg2 harg2 arg3 harg3 arg4 harg4 arg5 harg5 arg6 harg6 hc0 hc1 x0 x1 x2 x3 xs).2.1)
theorem coverLastOut (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) (y : S1x1.Idx) :
    ∃ pc ∈ (runLast c i arg1 harg1 arg2 harg2 arg3 harg3 arg4 harg4 arg5 harg5 arg6 harg6 hc0 hc1 x0 x1 x2 x3 xs).1, y ∈ pc.1.set :=
  View.cover_of_tiledL (runLast c i arg1 harg1 arg2 harg2 arg3 harg3 arg4 harg4 arg5 harg5 arg6 harg6 hc0 hc1 x0 x1 x2 x3 xs).1 S1x1.size (by sl_kernel_rfl) y
/-- The result buffer after the last point. -/
def outLast (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) : Vec F S1x1 .f32 :=
  VO.read (Elt F) (VO.writes (Elt F) VO.junk (runLast c i arg1 harg1 arg2 harg2 arg3 harg3 arg4 harg4 arg5 harg5 arg6 harg6 hc0 hc1 x0 x1 x2 x3 xs).1)

/-- Where the result window is idle nothing consults what it "holds after the body": a placeholder. -/
def idleOut : Vec F S1x1 .f32 := VO.read (Elt F) VO.junk

/-! ## The accumulation, point by point -/

/-- After the body at position `n`: the result buffer (a placeholder away from the last point) and the accumulator. -/
def state (c : Dev nD) : (n : ℕ) → n < cfg1.N → Vec F S1x1 .f32 × Vec F S1x1 .f32
  | 0, hn => (idleOut, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr rfl) (fun h => (show (0 : ℕ) ≠ 511 by decide) ((isLast_iff ⟨0, hn⟩).mp h)) (blk V c 0 ⟨0, hn⟩) (blk V c 1 ⟨0, hn⟩) (blk V c 2 ⟨0, hn⟩) (blk V c 3 ⟨0, hn⟩))
  | n + 1, hn =>
    if h1 : n + 1 = 511 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => Nat.succ_ne_zero n ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (state c n (Nat.lt_of_succ_lt hn)).2,
       accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => Nat.succ_ne_zero n ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (state c n (Nat.lt_of_succ_lt hn)).2)
    else
      (idleOut, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => Nat.succ_ne_zero n ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (state c n (Nat.lt_of_succ_lt hn)).2)

theorem state_first (c : Dev nD) (t : Fin cfg1.N) (h0 : t.val = 0) (h1 : ¬t.val = 511) :
    state V c t.val t.isLt = (idleOut, accFirst c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (blk V c 0 t) (blk V c 1 t) (blk V c 2 t) (blk V c 3 t)) := by
  obtain ⟨n, hn⟩ := t
  cases n with
  | zero => exact rfl
  | succ n => exact absurd h0 (Nat.succ_ne_zero n)

theorem state_mid (c : Dev nD) (t : Fin cfg1.N) (h0 : ¬t.val = 0) (h1 : ¬t.val = 511) :
    state V c t.val t.isLt = (idleOut, accMid c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (blk V c 0 t) (blk V c 1 t) (blk V c 2 t) (blk V c 3 t) (state V c (t.val - 1) (Nat.lt_of_le_of_lt (Nat.sub_le _ _) t.isLt)).2) := by
  obtain ⟨n, hn⟩ := t
  cases n with
  | zero => exact absurd rfl h0
  | succ n => exact (dif_neg h1).trans rfl

theorem state_last (c : Dev nD) (t : Fin cfg1.N) (h0 : ¬t.val = 0) (h1 : t.val = 511) :
    state V c t.val t.isLt = (outLast c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (blk V c 0 t) (blk V c 1 t) (blk V c 2 t) (blk V c 3 t) (state V c (t.val - 1) (Nat.lt_of_le_of_lt (Nat.sub_le _ _) t.isLt)).2,
      accLast c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (blk V c 0 t) (blk V c 1 t) (blk V c 2 t) (blk V c 3 t) (state V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- What the region never touches: the first launch's eight staging buffers, each whole at some contents, and the
    generator register at some state. -/
def untouched (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ r, prngReg c r))

/-- The class invariant (the scoped rest and the generator register) is the untouched part beside the accumulator at anything. -/
theorem classInv_split (c : Dev nD) : (Pipeline.ΦA spec1 c : sProp 𝕄) ⊢ iprop(untouched (F := F) c ∗ (∃ d, owns (c : Thread nD τ) scM fullShare d)) := by
  unfold Pipeline.ΦA untouched; rw [scopedRest1_eq]; simp only [scM, owns_whole]
  iintro ⟨⟨Ha, Hb, Hc, Hd, He, Hf, Hg, Hh, HS⟩, Hp⟩
  isplitl [Ha Hb Hc Hd He Hf Hg Hh Hp]
  · isplitl [Ha Hb Hc Hd He Hf Hg Hh]
    · isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      iexact Hh
    iexact Hp
  iexact HS
theorem classInv_join (c : Dev nD) : iprop(untouched (F := F) c ∗ (∃ d, owns (c : Thread nD τ) scM fullShare d)) ⊢ (Pipeline.ΦA spec1 c : sProp 𝕄) := by
  unfold Pipeline.ΦA untouched; rw [scopedRest1_eq]; simp only [scM, owns_whole]
  iintro ⟨⟨⟨Ha, Hb, Hc, Hd, He, Hf, Hg, Hh⟩, Hp⟩, HS⟩
  isplitl [Ha Hb Hc Hd He Hf Hg Hh HS]
  · isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    iexact HS
  iexact Hp

/-- The invariant before position `n`: before the first point the accumulator at anything; afterwards at what the
    point before left in it. -/
def PhiS (c : Dev nD) : (n : ℕ) → n ≤ cfg1.N → sProp 𝕄
  | 0, _ => iprop(untouched c ∗ (∃ d, owns (c : Thread nD τ) scM fullShare d))
  | n + 1, hn => iprop(untouched c ∗ owns (c : Thread nD τ) scM fullShare ((state V c n hn).2))

theorem PhiS_zero (c : Dev nD) (n : ℕ) (h : n ≤ cfg1.N) (hz : n = 0) :
    PhiS V c n h = iprop(untouched c ∗ (∃ d, owns (c : Thread nD τ) scM fullShare d)) := by
  subst hz; rfl
theorem PhiS_succ (c : Dev nD) (n : ℕ) (hn : n < cfg1.N) :
    PhiS V c (n + 1) hn = iprop(untouched c ∗ owns (c : Thread nD τ) scM fullShare ((state V c n hn).2)) := rfl
theorem PhiS_pos (c : Dev nD) (n : ℕ) (h : n ≤ cfg1.N) (hz : n ≠ 0) :
    PhiS V c n h = iprop(untouched c ∗ owns (c : Thread nD τ) scM fullShare ((state V c (n - 1) (by omega)).2)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (state V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = (state V c t.val t.isLt).1 := by dsimp only [dat]

theorem before_0 (c : Dev nD) (t : Fin cfg1.N) (d) : (dat V c).before 0 t d = blk V c 0 t :=
  before_in0 V (dat V c) (A_eq V c 0) (after_0 V c) t d
theorem before_1 (c : Dev nD) (t : Fin cfg1.N) (d) : (dat V c).before 1 t d = blk V c 1 t :=
  before_in1 V (dat V c) (A_eq V c 1) (after_1 V c) t d
theorem before_2 (c : Dev nD) (t : Fin cfg1.N) (d) : (dat V c).before 2 t d = blk V c 2 t :=
  before_in2 V (dat V c) (A_eq V c 2) (after_2 V c) t d
theorem before_3 (c : Dev nD) (t : Fin cfg1.N) (d) : (dat V c).before 3 t d = blk V c 3 t :=
  before_in3 V (dat V c) (A_eq V c 3) (after_3 V c) t d

theorem leaves_0 (c : Dev nD) (t : Fin cfg1.N) :
    (dat V c).leavesExact 0 t = owns (c : Thread nD τ) (ms0 t) fullShare (blk V c 0 t) := by
  unfold Dat.leavesExact; rw [live0 t, after_0]
theorem leaves_1 (c : Dev nD) (t : Fin cfg1.N) :
    (dat V c).leavesExact 1 t = owns (c : Thread nD τ) (ms1 t) fullShare (blk V c 1 t) := by
  unfold Dat.leavesExact; rw [live1 t, after_1]
theorem leaves_2 (c : Dev nD) (t : Fin cfg1.N) :
    (dat V c).leavesExact 2 t = owns (c : Thread nD τ) (ms2 t) fullShare (blk V c 2 t) := by
  unfold Dat.leavesExact; rw [live2 t, after_2]
theorem leaves_3 (c : Dev nD) (t : Fin cfg1.N) :
    (dat V c).leavesExact 3 t = owns (c : Thread nD τ) (ms3 t) fullShare (blk V c 3 t) := by
  unfold Dat.leavesExact; rw [live3 t, after_3]

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 4800000 in
/-- The body at any point: the inputs' buffers hold their blocks; the point is the first, the last, or in between;
    the invariant hands the body the accumulator at what the point before left (at anything at the first point) and
    takes it back at this point's value. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 512 := lt_of_lt_of_eq t.isLt (show cfg1.N = 512 from N_1)
  by_cases h0 : t.val = 0
  · have h1 : ¬t.val = 511 := by omega
    rw [Dat.leavesExact_idle (dat V c) 4 t (idle4 t (fun h => h1 ((isLast_iff t).mp h))) (noFlush4 t (fun h => h1 ((isLast_iff t).mp h)))]
    rw [state_first V c t h0 h1]
    unfold accFirst; (try dsimp only)
    rw [PhiS_castSucc V c t, PhiS_zero V c _ _ h0]
    iintro ⟨⟨HR, HS⟩, Ho, ⟨%d0, H0⟩, ⟨%d1, H1⟩, ⟨%d2, H2⟩, ⟨%d3, H3⟩, ⟨%d4, H4⟩⟩
    iapply ((runFirst c (grid1.coords t) _ _ _ _ _ _ _ _ _ _ _ _ ((isFirst_iff t).mpr h0) (fun h => h1 ((isLast_iff t).mp h)) (blk V c 0 t) (blk V c 1 t) (blk V c 2 t) (blk V c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HR HS]
    · isplitl [HR]; · iexact HR
      unfold owns; iexists _; isplitr
      swap; · iexact HS
      ipureintro; exact View.read_writes_of_cover _ _ _ _ _ (coverFirst c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · by_cases h1 : t.val = 511
    · rw [show (dat V c).leavesExact 4 t = owns (c : Thread nD τ) (ms4 t) fullShare ((dat V c).after 4 t) from by
        unfold Dat.leavesExact; rw [live4 t ((isLast_iff t).mpr h1)], after_4]
      rw [state_last V c t h0 h1]
      unfold outLast accLast; (try dsimp only)
      rw [PhiS_castSucc V c t, PhiS_pos V c _ _ h0]
      iintro ⟨⟨HR, HS⟩, Ho, ⟨%d0, H0⟩, ⟨%d1, H1⟩, ⟨%d2, H2⟩, ⟨%d3, H3⟩, ⟨%d4, H4⟩⟩
      iapply ((runLast c (grid1.coords t) _ _ _ _ _ _ _ _ _ _ _ _ (fun h => h0 ((isFirst_iff t).mp h)) ((isLast_iff t).mpr h1) (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HR HS]
      · isplitl [HR]; · iexact HR
        unfold owns; iexists _; isplitr
        swap; · iexact HS
        ipureintro; exact View.read_writes_of_cover _ _ _ _ _ (coverLastAcc c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _)
    · rw [Dat.leavesExact_idle (dat V c) 4 t (idle4 t (fun h => h1 ((isLast_iff t).mp h))) (noFlush4 t (fun h => h1 ((isLast_iff t).mp h)))]
      rw [state_mid V c t h0 h1]
      unfold accMid; (try dsimp only)
      rw [PhiS_castSucc V c t, PhiS_pos V c _ _ h0]
      iintro ⟨⟨HR, HS⟩, Ho, ⟨%d0, H0⟩, ⟨%d1, H1⟩, ⟨%d2, H2⟩, ⟨%d3, H3⟩, ⟨%d4, H4⟩⟩
      iapply ((runMid c (grid1.coords t) _ _ _ _ _ _ _ _ _ _ _ _ (fun h => h0 ((isFirst_iff t).mp h)) (fun h => h1 ((isLast_iff t).mp h)) (blk V c 0 t) (blk V c 1 t) (blk V c 2 t) (blk V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HR HS]
      · isplitl [HR]; · iexact HR
        unfold owns; iexists _; isplitr
        swap; · iexact HS
        ipureintro; exact View.read_writes_of_cover _ _ _ _ _ (coverMid c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W1, bigSep_W1]
  exact sound_body V c t

/-- What the launch hands the region is the invariant before the first point; after the last point the invariant
    gives it back (the accumulator's value forgotten). -/
theorem inv_in (c : Dev nD) : (Pipeline.ΦA spec1 c : sProp 𝕄) ⊢ (dat V c).Φ 0 := by
  rw [show (dat V c).Φ 0 = PhiS V c 0 (Nat.zero_le _) from rfl, PhiS_zero V c 0 _ rfl]
  exact classInv_split c
theorem inv_out (c : Dev nD) : (dat V c).Φ (Fin.last cfg1.N) ⊢ (Pipeline.ΦA spec1 c : sProp 𝕄) := by
  have hne : (Fin.last cfg1.N).val ≠ 0 := by rw [Fin.val_last]; have : cfg1.N = 512 := N_1; omega
  rw [show (dat V c).Φ (Fin.last cfg1.N) = PhiS V c (Fin.last cfg1.N).val (Nat.le_of_lt_succ (Fin.last cfg1.N).isLt) from rfl, PhiS_pos V c _ _ hne]
  iintro ⟨HR, HS⟩
  iapply (classInv_join c)
  isplitl [HR]; · iexact HR
  iexists _; iexact HS

end Cert.Kernel.Reduce

end
-- ==== Proof.WordWholeRun.lean ====
/-
  (The same statements for the kernel as printed, read at the word level: the text of the program is the same.)
  The run of @main: two reshapes, the extraction region, the host lines that gather the sampled rows, the reduction
  region, and the reshape of the one-element result to a scalar. The core's buffer contents are followed from the
  launch memory through these five segments (a host stretch applies its operations; a region leaves its arrays at
  what its write-backs make of them and every other buffer alone); every weakly fair execution terminates, and the
  final memory holds every unscoped buffer at the last of these contents. The argument arrays are written by no
  segment, so they end as launched.
-/
import proofs.«168992_j31164282699885_2_alg».proof.Proof.WordExtractRegion
import proofs.«168992_j31164282699885_2_alg».proof.Proof.WordReduceRegion
import proofs.«168992_j31164282699885_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the extraction region: its arrays at what the pipeline leaves, every other buffer as entered. -/
def W2 (c : Dev nD) : Valuation τ sig (Elt F) :=
  Pipeline.withArrays spec0 c (W1 m ρ c) fun w => (Extract.dat (V1 m ρ) c).arrAt w cfg0.N
theorem W2_arr (c : Dev nD) (w : Fin cfg0.W) :
    W2 m ρ c (Proc.devRef .tc (Pipeline.arrRef spec0 w)) = (Extract.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Extract.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the reduction region. -/
def W4 (c : Dev nD) : Valuation τ sig (Elt F) :=
  Pipeline.withArrays spec1 c (W3 m ρ c) fun w => (Reduce.dat (V3 m ρ) c).arrAt w cfg1.N
theorem W4_arr (c : Dev nD) (w : Fin cfg1.W) :
    W4 m ρ c (Proc.devRef .tc (Pipeline.arrRef spec1 w)) = (Reduce.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Reduce.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Extract.dat (V1 m ρ) c
  | ⟨1, _⟩ => fun c => Reduce.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Extract.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reduce.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Reduce.dat (V3 m ρ) c).Φ 0 from rfl]
    have h := Reduce.inv_in (V3 m ρ) c; unfold Pipeline.ΦA at h
    iintro ⟨Hp, -, Hr⟩
    iapply h
    isplitl [Hr]; · iexact Hr
    iexact Hp
  hout c := by
    rw [Pipeline.ownSems0_none, show (pdats m ρ 1 c).Φ (Fin.last _) = (Reduce.dat (V3 m ρ) c).Φ (Fin.last cfg1.N) from rfl]
    have h := Reduce.inv_out (V3 m ρ) c; unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, faulting nowhere, and the final memory holds every unscoped
    buffer of every core at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Whole

end
-- ==== Proof.ExtractRegion.lean ====
/-
  The extraction region (the first kernel launch), at any contents `V` of the core's buffers when it is entered.
  At grid point `t` the body reads rows 8192·t … 8192·t+8191 of the two flattened frame arrays (nine columns each)
  and stores, whole, columns 3, 4, 5 of those rows — the middle row of each 3×3 frame — into the two result blocks.
  Stated here: what each result block holds after the body as a function of the input block, the body's triple,
  and the proof data of the pipeline (inputs left in place, outputs at that function of the inputs, nothing carried
  from point to point).
-/
import proofs.«168992_j31164282699885_2_alg».proof.Proof.Gen.KernelIdeal.Launch
import proofs.«168992_j31164282699885_2_alg».proof.Proof.Gen.KernelIdeal.Skeleton
import proofs.«168992_j31164282699885_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Extract

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (the index moves at every point, the
    window is never idle and never cut). -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole 8192×9 input block and the whole 8192×3 result block, as rectangles. -/
abbrev whole9 : Rect S8192x9 := Rect.unit (s := S8192x9) ![0, 0] S8192x9.size inb_S8192x9_S8192x9_0_0
abbrev whole3 : Rect S8192x3 := Rect.unit (s := S8192x3) ![0, 0] S8192x3.size inb_S8192x3_S8192x3_0_0

/-- What the body leaves in the first result block: columns 3–5 of the first input block, stored whole. -/
def mid0 (x0 : Vec F S8192x9 .f32) : Vec F S8192x3 .f32 :=
  View.canon [⟨whole3, k0_pay1 (View.ld x0 whole9)⟩]
/-- What the body leaves in the second result block: columns 3–5 of the second input block, stored whole. -/
def mid1 (x1 : Vec F S8192x9 .f32) : Vec F S8192x3 .f32 :=
  View.canon [⟨whole3, k0_pay2 (View.ld x1 whole9)⟩]

/-- One whole-block store covers the block. -/
theorem cover3 (p0 : Vec F S8192x3 .f32) (y : S8192x3.Idx) :
    ∃ pc ∈ ([⟨whole3, p0⟩] : List (View.Piece (Elt F) S8192x3 .f32)), y ∈ pc.1.set :=
  View.cover_of_tiled [⟨whole3, p0⟩] S8192x3.size (by rfl) y

set_option maxHeartbeats 1000000 in
/-- The body on whole staging buffers: the inputs at `x0`, `x1`, the outputs at anything; it ends with the inputs as
    they were and the outputs at `mid0 x0`, `mid1 x1`. -/
theorem sound_kernel (c : Dev nD) (E : Set ℕ) (i : grid0.Coords) (arg1 : Memref sig .tc .vmem S8192x9 .f32) (harg1 : arg1.IsWhole) (arg2 : Memref sig .tc .vmem S8192x9 .f32) (harg2 : arg2.IsWhole)
    (arg3 : Memref sig .tc .vmem S8192x3 .f32) (harg3 : arg3.IsWhole) (arg4 : Memref sig .tc .vmem S8192x3 .f32) (harg4 : arg4.IsWhole)
    (x0 x1 : Vec F S8192x9 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (mid0 x0) ∗ owns (c : Thread nD τ) arg4 fullShare (mid1 x1)) -∗ K ⟨⟩))
      ⊢ wp frame (wpE (defs₀ (F := F)) Variants.none c none) E (cc0__extract_kernel i arg1 harg1 arg2 harg2 arg3 harg3 arg4 harg4) K := by
  simp only [cc0__extract_kernel_eq_skeleton]; unfold cc0__extract_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3 _)
  iexists _; isplitr
  swap; · iexact H3
  ipureintro
  exact View.read_writes_eq_canon _ _ _ (cover3 _)

/-- The pipeline's proof data on core `c`: the arrays as the region finds them; after the body at point `t` each
    input's buffer at its block and each output's at the middle columns of the matching input block; the invariant
    the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => mid0 (blk V c 0 t)
    | ⟨3, _⟩ => mid1 (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = mid0 (blk V c 0 t) := by dsimp only [dat]
theorem after_3 (c : Dev nD) (t : Fin cfg0.N) : (dat V c).after 3 t = mid1 (blk V c 1 t) := by dsimp only [dat]

theorem before_0 (c : Dev nD) (t : Fin cfg0.N) (d) : (dat V c).before 0 t d = blk V c 0 t :=
  before_in0 V (dat V c) (A_eq V c 0) (after_0 V c) t d
theorem before_1 (c : Dev nD) (t : Fin cfg0.N) (d) : (dat V c).before 1 t d = blk V c 1 t :=
  before_in1 V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Extract

end
-- ==== Proof.ReduceBody.lean ====
/-
  The reduction region (the second kernel launch), at any contents `V` of the core's buffers when it is entered.
  At grid point `t` the body reads rows 8192·t … 8192·t+8191 of the four gathered coordinate arrays, forms for each
  row the squared difference of the two distances, sums the 8192 rows, and adds the sum to a one-element accumulator
  it keeps between points: the accumulator is set to zero at the first point, and at the last point the body also
  stores the accumulator times 2⁻²² into the one-element result block. So there are three cases of the body —
  the first point, the last point, a point in between —, and what the accumulator holds after point `t` is defined
  by recursion on `t`. Stated here: the body's triple in each case, the accumulator point by point, the region's
  invariant (the accumulator at its value after the point before), and the proof data of the pipeline.
-/
import proofs.«168992_j31164282699885_2_alg».proof.Proof.Gen.KernelIdeal.Launch
import proofs.«168992_j31164282699885_2_alg».proof.Proof.Gen.KernelIdeal.Skeleton
import proofs.«168992_j31164282699885_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- "This is the first point": the condition under which the body zeroes the accumulator. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)
/-- "This is the last point": the condition under which the body stores the result. -/
abbrev isLast (i : grid1.Coords) : Prop := k1_cond2 i = 1#1
theorem isLast_iff : ∀ t : Fin cfg1.N, isLast (grid1.coords t) ↔ t.val = 511 :=
  (by decide +kernel : ∀ t : Fin grid1.N, isLast (grid1.coords t) ↔ t.val = 511)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
/-- Away from the last point the result window is idle and is not written back. -/
theorem idle4 : ∀ t : Fin cfg1.N, ¬isLast (grid1.coords t) → cfg1.idle 4 (grid1.coords t) = true := by decide +kernel
theorem noFlush4 : ∀ t : Fin cfg1.N, ¬isLast (grid1.coords t) → (cfg1.win 4).flush t = false := by decide +kernel
theorem live4 : ∀ t : Fin cfg1.N, isLast (grid1.coords t) → cfg1.idle 4 (grid1.coords t) = false := by decide +kernel

/-! ## The memrefs the body is called with -/

/-- The result window's one staging buffer and the accumulator, as views: their contents are stated through them. -/
abbrev VO : View sig .tc .vmem S1x1 .f32 := (Memref.whole cc1_stg4_0 : Memref sig .tc .vmem S1x1 .f32).view
abbrev scM : Memref sig .tc .vmem S1x1 .f32 := Memref.whole cc1_scratch0
abbrev VS : View sig .tc .vmem S1x1 .f32 := scM.view
abbrev ms0 (t : Fin cfg1.N) : Memref sig .tc .vmem S8192x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x3 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S8192x3 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S8192x3 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1 .f32 := win1_4.stage (cfg1.slots t 4)
abbrev hs4 (t : Fin cfg1.N) : (ms4 t).IsWhole := hstage1_4 ((cfg1.slots t 4).cast nbuf1_4)

/-! ## The body's triple, case by case -/

set_option maxHeartbeats 1000000 in
/-- THE FIRST POINT. The inputs at `x0 … x3`, the result buffer (idle here) at `xi` and handed back untouched, the
    accumulator at anything: the body ends with the accumulator at its stores' pieces `LS` (found by running it). -/
noncomputable def runFirst (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 x2 x3 : Vec F S8192x3 .f32) :
    Σ' (L4 : List (View.Piece (Elt F) S1x1 .f32)), { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__mse_kernel i arg1 harg1 arg2 harg2 arg3 harg3 arg4 harg4 arg5 harg5 arg6 harg6) K } := by
  refine ⟨[], ?_, fun xi E K => ?run⟩
  case run =>
    simp only [cc1__mse_kernel_eq_skeleton]; unfold cc1__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 1000000 in
/-- A POINT IN BETWEEN. As the first point, but the accumulator comes in at `xs`, what the point before left. -/
noncomputable def runMid (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 x2 x3 : Vec F S8192x3 .f32) (xs : Vec F S1x1 .f32) :
    Σ' (L4 : List (View.Piece (Elt F) S1x1 .f32)), { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__mse_kernel i arg1 harg1 arg2 harg2 arg3 harg3 arg4 harg4 arg5 harg5 arg6 harg6) K } := by
  refine ⟨[], ?_, fun xi E K => ?run⟩
  case run =>
    simp only [cc1__mse_kernel_eq_skeleton]; unfold cc1__mse_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 1000000 in
/-- THE LAST POINT. The accumulator comes in at `xs`; the result buffer comes in at anything and ends at its
    store's pieces `L4`, the accumulator at `LS`. -/
noncomputable def runLast (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc1__mse_kernel i arg1 harg1 arg2 harg2 arg3 harg3 arg4 harg4 arg5 harg5 arg6 harg6) K } := by
  refine ⟨?_, ?_, fun E K => ?run⟩
  case run =>
    simp only [cc1__mse_kernel_eq_skeleton]; unfold cc1__mse_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Reduce

end
-- ==== Proof.ReduceRegion.lean ====
/-
  The reduction region, continued: what the accumulator holds after each point (by recursion on the point: the
  first point's value, then each point's value over the one before), the region's invariant (the scoped buffers the
  region does not stage at anything, the generator register at some state, and the accumulator — at anything before
  the first point, afterwards at its value after the point before), the proof data and the body obligation.
-/
import proofs.«168992_j31164282699885_2_alg».proof.Proof.ReduceBody

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## What each case leaves in the accumulator and in the result buffer -/

theorem coverFirst (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 x2 x3 : Vec F S8192x3 .f32) (y : S1x1.Idx) :
    ∃ pc ∈ (runFirst c i arg1 harg1 arg2 harg2 arg3 harg3 arg4 harg4 arg5 harg5 arg6 harg6 hc0 hc1 x0 x1 x2 x3).2.1, y ∈ pc.1.set :=
  View.cover_of_tiledL (runFirst c i arg1 harg1 arg2 harg2 arg3 harg3 arg4 harg4 arg5 harg5 arg6 harg6 hc0 hc1 x0 x1 x2 x3).2.1 S1x1.size (by sl_kernel_rfl) y
/-- The accumulator after the first point. -/
def accFirst (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 x2 x3 : Vec F S8192x3 .f32) : Vec F S1x1 .f32 :=
  VS.read (Elt F) (VS.writes (Elt F) VS.junk (runFirst c i arg1 harg1 arg2 harg2 arg3 harg3 arg4 harg4 arg5 harg5 arg6 harg6 hc0 hc1 x0 x1 x2 x3).2.1)

theorem coverMid (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 x2 x3 : Vec F S8192x3 .f32) (xs : Vec F S1x1 .f32) (y : S1x1.Idx) :
    ∃ pc ∈ (runMid c i arg1 harg1 arg2 harg2 arg3 harg3 arg4 harg4 arg5 harg5 arg6 harg6 hc0 hc1 x0 x1 x2 x3 xs).2.1, y ∈ pc.1.set :=
  View.cover_of_tiledL (runMid c i arg1 harg1 arg2 harg2 arg3 harg3 arg4 harg4 arg5 harg5 arg6 harg6 hc0 hc1 x0 x1 x2 x3 xs).2.1 S1x1.size (by sl_kernel_rfl) y
/-- The accumulator after a point in between, over what the point before left (`xs`). -/
def accMid (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 x2 x3 : Vec F S8192x3 .f32) (xs : Vec F S1x1 .f32) : Vec F S1x1 .f32 :=
  VS.read (Elt F) (VS.writes (Elt F) VS.junk (runMid c i arg1 harg1 arg2 harg2 arg3 harg3 arg4 harg4 arg5 harg5 arg6 harg6 hc0 hc1 x0 x1 x2 x3 xs).2.1)

theorem coverLastAcc (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) (y : S1x1.Idx) :
    ∃ pc ∈ (runLast c i arg1 harg1 arg2 harg2 arg3 harg3 arg4 harg4 arg5 harg5 arg6 harg6 hc0 hc1 x0 x1 x2 x3 xs).2.1, y ∈ pc.1.set :=
  View.cover_of_tiledL (runLast c i arg1 harg1 arg2 harg2 arg3 harg3 arg4 harg4 arg5 harg5 arg6 harg6 hc0 hc1 x0 x1 x2 x3 xs).2.1 S1x1.size (by sl_kernel_rfl) y
/-- The accumulator after the last point. -/
def accLast (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) : Vec F S1x1 .f32 :=
  VS.read (Elt F) (VS.writes (Elt F) VS.junk (runLast c i arg1 harg1 arg2 harg2 arg3 harg3 arg4 harg4 arg5 harg5 arg6 harg6 hc0 hc1 x0 x1 x2 x3 xs).2.1)
theorem coverLastOut (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) (y : S1x1.Idx) :
    ∃ pc ∈ (runLast c i arg1 harg1 arg2 harg2 arg3 harg3 arg4 harg4 arg5 harg5 arg6 harg6 hc0 hc1 x0 x1 x2 x3 xs).1, y ∈ pc.1.set :=
  View.cover_of_tiledL (runLast c i arg1 harg1 arg2 harg2 arg3 harg3 arg4 harg4 arg5 harg5 arg6 harg6 hc0 hc1 x0 x1 x2 x3 xs).1 S1x1.size (by sl_kernel_rfl) y
/-- The result buffer after the last point. -/
def outLast (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) : Vec F S1x1 .f32 :=
  VO.read (Elt F) (VO.writes (Elt F) VO.junk (runLast c i arg1 harg1 arg2 harg2 arg3 harg3 arg4 harg4 arg5 harg5 arg6 harg6 hc0 hc1 x0 x1 x2 x3 xs).1)

/-- Where the result window is idle nothing consults what it "holds after the body": a placeholder. -/
def idleOut : Vec F S1x1 .f32 := VO.read (Elt F) VO.junk

/-! ## The accumulation, point by point -/

/-- After the body at position `n`: the result buffer (a placeholder away from the last point) and the accumulator. -/
def state (c : Dev nD) : (n : ℕ) → n < cfg1.N → Vec F S1x1 .f32 × Vec F S1x1 .f32
  | 0, hn => (idleOut, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((isFirst_iff ⟨0, hn⟩).mpr rfl) (fun h => (show (0 : ℕ) ≠ 511 by decide) ((isLast_iff ⟨0, hn⟩).mp h)) (blk V c 0 ⟨0, hn⟩) (blk V c 1 ⟨0, hn⟩) (blk V c 2 ⟨0, hn⟩) (blk V c 3 ⟨0, hn⟩))
  | n + 1, hn =>
    if h1 : n + 1 = 511 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => Nat.succ_ne_zero n ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (state c n (Nat.lt_of_succ_lt hn)).2,
       accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => Nat.succ_ne_zero n ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (state c n (Nat.lt_of_succ_lt hn)).2)
    else
      (idleOut, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => Nat.succ_ne_zero n ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (state c n (Nat.lt_of_succ_lt hn)).2)

theorem state_first (c : Dev nD) (t : Fin cfg1.N) (h0 : t.val = 0) (h1 : ¬t.val = 511) :
    state V c t.val t.isLt = (idleOut, accFirst c (grid1.coords t) (ms0 t) (hs0 t) (ms1 t) (hs1 t) (ms2 t) (hs2 t) (ms3 t) (hs3 t) (ms4 t) (hs4 t) scM (Memref.isWhole_whole _) ((isFirst_iff t).mpr h0) (fun h => h1 ((isLast_iff t).mp h)) (blk V c 0 t) (blk V c 1 t) (blk V c 2 t) (blk V c 3 t)) := by
  obtain ⟨n, hn⟩ := t
  cases n with
  | zero => exact rfl
  | succ n => exact absurd h0 (Nat.succ_ne_zero n)

theorem state_mid (c : Dev nD) (t : Fin cfg1.N) (h0 : ¬t.val = 0) (h1 : ¬t.val = 511) :
    state V c t.val t.isLt = (idleOut, accMid c (grid1.coords t) (ms0 t) (hs0 t) (ms1 t) (hs1 t) (ms2 t) (hs2 t) (ms3 t) (hs3 t) (ms4 t) (hs4 t) scM (Memref.isWhole_whole _) (fun h => h0 ((isFirst_iff t).mp h)) (fun h => h1 ((isLast_iff t).mp h)) (blk V c 0 t) (blk V c 1 t) (blk V c 2 t) (blk V c 3 t) (state V c (t.val - 1) (Nat.lt_of_le_of_lt (Nat.sub_le _ _) t.isLt)).2) := by
  obtain ⟨n, hn⟩ := t
  cases n with
  | zero => exact absurd rfl h0
  | succ n => exact (dif_neg h1).trans rfl

theorem state_last (c : Dev nD) (t : Fin cfg1.N) (h0 : ¬t.val = 0) (h1 : t.val = 511) :
    state V c t.val t.isLt = (outLast c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (blk V c 0 t) (blk V c 1 t) (blk V c 2 t) (blk V c 3 t) (state V c (t.val - 1) (Nat.lt_of_le_of_lt (Nat.sub_le _ _) t.isLt)).2,
      accLast c (grid1.coords t) (ms0 t) (hs0 t) (ms1 t) (hs1 t) (ms2 t) (hs2 t) (ms3 t) (hs3 t) (ms4 t) (hs4 t) scM (Memref.isWhole_whole _) (fun h => h0 ((isFirst_iff t).mp h)) ((isLast_iff t).mpr h1) (blk V c 0 t) (blk V c 1 t) (blk V c 2 t) (blk V c 3 t) (state V c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- What the region never touches: the first launch's eight staging buffers, each whole at some contents, and the
    generator register at some state. -/
def untouched (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ r, prngReg c r))

/-- The class invariant (the scoped rest and the generator register) is the untouched part beside the accumulator at anything. -/
theorem classInv_split (c : Dev nD) : (Pipeline.ΦA spec1 c : sProp 𝕄) ⊢ iprop(untouched (F := F) c ∗ (∃ d, owns (c : Thread nD τ) scM fullShare d)) := by
  unfold Pipeline.ΦA untouched; rw [scopedRest1_eq]; simp only [scM, owns_whole]
  iintro ⟨⟨Ha, Hb, Hc, Hd, He, Hf, Hg, Hh, HS⟩, Hp⟩
  isplitl [Ha Hb Hc Hd He Hf Hg Hh Hp]
  · isplitl [Ha Hb Hc Hd He Hf Hg Hh]
    · isplitl [Ha]; · iexact Ha
      isplitl [Hb]; · iexact Hb
      isplitl [Hc]; · iexact Hc
      isplitl [Hd]; · iexact Hd
      isplitl [He]; · iexact He
      isplitl [Hf]; · iexact Hf
      isplitl [Hg]; · iexact Hg
      iexact Hh
    iexact Hp
  iexact HS
theorem classInv_join (c : Dev nD) : iprop(untouched (F := F) c ∗ (∃ d, owns (c : Thread nD τ) scM fullShare d)) ⊢ (Pipeline.ΦA spec1 c : sProp 𝕄) := by
  unfold Pipeline.ΦA untouched; rw [scopedRest1_eq]; simp only [scM, owns_whole]
  iintro ⟨⟨⟨Ha, Hb, Hc, Hd, He, Hf, Hg, Hh⟩, Hp⟩, HS⟩
  isplitl [Ha Hb Hc Hd He Hf Hg Hh HS]
  · isplitl [Ha]; · iexact Ha
    isplitl [Hb]; · iexact Hb
    isplitl [Hc]; · iexact Hc
    isplitl [Hd]; · iexact Hd
    isplitl [He]; · iexact He
    isplitl [Hf]; · iexact Hf
    isplitl [Hg]; · iexact Hg
    isplitl [Hh]; · iexact Hh
    iexact HS
  iexact Hp

/-- The invariant before position `n`: before the first point the accumulator at anything; afterwards at what the
    point before left in it. -/
def PhiS (c : Dev nD) : (n : ℕ) → n ≤ cfg1.N → sProp 𝕄
  | 0, _ => iprop(untouched c ∗ (∃ d, owns (c : Thread nD τ) scM fullShare d))
  | n + 1, hn => iprop(untouched c ∗ owns (c : Thread nD τ) scM fullShare ((state V c n hn).2))

theorem PhiS_zero (c : Dev nD) (n : ℕ) (h : n ≤ cfg1.N) (hz : n = 0) :
    PhiS V c n h = iprop(untouched c ∗ (∃ d, owns (c : Thread nD τ) scM fullShare d)) := by
  subst hz; rfl
theorem PhiS_succ (c : Dev nD) (n : ℕ) (hn : n < cfg1.N) :
    PhiS V c (n + 1) hn = iprop(untouched c ∗ owns (c : Thread nD τ) scM fullShare ((state V c n hn).2)) := rfl
theorem PhiS_pos (c : Dev nD) (n : ℕ) (h : n ≤ cfg1.N) (hz : n ≠ 0) :
    PhiS V c n h = iprop(untouched c ∗ owns (c : Thread nD τ) scM fullShare ((state V c (n - 1) (by omega)).2)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (state V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = (state V c t.val t.isLt).1 := by dsimp only [dat]

theorem before_0 (c : Dev nD) (t : Fin cfg1.N) (d) : (dat V c).before 0 t d = blk V c 0 t :=
  before_in0 V (dat V c) (A_eq V c 0) (after_0 V c) t d
theorem before_1 (c : Dev nD) (t : Fin cfg1.N) (d) : (dat V c).before 1 t d = blk V c 1 t :=
  before_in1 V (dat V c) (A_eq V c 1) (after_1 V c) t d
theorem before_2 (c : Dev nD) (t : Fin cfg1.N) (d) : (dat V c).before 2 t d = blk V c 2 t :=
  before_in2 V (dat V c) (A_eq V c 2) (after_2 V c) t d
theorem before_3 (c : Dev nD) (t : Fin cfg1.N) (d) : (dat V c).before 3 t d = blk V c 3 t :=
  before_in3 V (dat V c) (A_eq V c 3) (after_3 V c) t d

theorem leaves_0 (c : Dev nD) (t : Fin cfg1.N) :
    (dat V c).leavesExact 0 t = owns (c : Thread nD τ) (ms0 t) fullShare (blk V c 0 t) := by
  unfold Dat.leavesExact; rw [live0 t, after_0]
theorem leaves_1 (c : Dev nD) (t : Fin cfg1.N) :
    (dat V c).leavesExact 1 t = owns (c : Thread nD τ) (ms1 t) fullShare (blk V c 1 t) := by
  unfold Dat.leavesExact; rw [live1 t, after_1]
theorem leaves_2 (c : Dev nD) (t : Fin cfg1.N) :
    (dat V c).leavesExact 2 t = owns (c : Thread nD τ) (ms2 t) fullShare (blk V c 2 t) := by
  unfold Dat.leavesExact; rw [live2 t, after_2]
theorem leaves_3 (c : Dev nD) (t : Fin cfg1.N) :
    (dat V c).leavesExact 3 t = owns (c : Thread nD τ) (ms3 t) fullShare (blk V c 3 t) := by
  unfold Dat.leavesExact; rw [live3 t, after_3]

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t)

set_option maxHeartbeats 4800000 in
/-- The body at any point: the inputs' buffers hold their blocks; the point is the first, the last, or in between;
    the invariant hands the body the accumulator at what the point before left (at anything at the first point) and
    takes it back at this point's value. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 512 := lt_of_lt_of_eq t.isLt (show cfg1.N = 512 from N_1)
  by_cases h0 : t.val = 0
  · have h1 : ¬t.val = 511 := by omega
    rw [Dat.leavesExact_idle (dat V c) 4 t (idle4 t (fun h => h1 ((isLast_iff t).mp h))) (noFlush4 t (fun h => h1 ((isLast_iff t).mp h)))]
    rw [state_first V c t h0 h1]
    unfold accFirst; (try dsimp only)
    rw [PhiS_castSucc V c t, PhiS_zero V c _ _ h0]
    iintro ⟨⟨HR, HS⟩, Ho, ⟨%d0, H0⟩, ⟨%d1, H1⟩, ⟨%d2, H2⟩, ⟨%d3, H3⟩, ⟨%d4, H4⟩⟩
    iapply ((runFirst c (grid1.coords t) _ _ _ _ _ _ _ _ _ _ _ _ ((isFirst_iff t).mpr h0) (fun h => h1 ((isLast_iff t).mp h)) (blk V c 0 t) (blk V c 1 t) (blk V c 2 t) (blk V c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HR HS]
    · isplitl [HR]; · iexact HR
      unfold owns; iexists _; isplitr
      swap; · iexact HS
      ipureintro; exact View.read_writes_of_cover _ _ _ _ _ (coverFirst c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · by_cases h1 : t.val = 511
    · rw [show (dat V c).leavesExact 4 t = owns (c : Thread nD τ) (ms4 t) fullShare ((dat V c).after 4 t) from by
        unfold Dat.leavesExact; rw [live4 t ((isLast_iff t).mpr h1)], after_4]
      rw [state_last V c t h0 h1]
      unfold outLast accLast; (try dsimp only)
      rw [PhiS_castSucc V c t, PhiS_pos V c _ _ h0]
      iintro ⟨⟨HR, HS⟩, Ho, ⟨%d0, H0⟩, ⟨%d1, H1⟩, ⟨%d2, H2⟩, ⟨%d3, H3⟩, ⟨%d4, H4⟩⟩
      iapply ((runLast c (grid1.coords t) _ _ _ _ _ _ _ _ _ _ _ _ (fun h => h0 ((isFirst_iff t).mp h)) ((isLast_iff t).mpr h1) (blk V c 0 t) (blk V c 1 t) (blk V c 2 t) (blk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HR HS]
      · isplitl [HR]; · iexact HR
        unfold owns; iexists _; isplitr
        swap; · iexact HS
        ipureintro; exact View.read_writes_of_cover _ _ _ _ _ (coverLastAcc c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _)
    · rw [Dat.leavesExact_idle (dat V c) 4 t (idle4 t (fun h => h1 ((isLast_iff t).mp h))) (noFlush4 t (fun h => h1 ((isLast_iff t).mp h)))]
      rw [state_mid V c t h0 h1]
      unfold accMid; (try dsimp only)
      rw [PhiS_castSucc V c t, PhiS_pos V c _ _ h0]
      iintro ⟨⟨HR, HS⟩, Ho, ⟨%d0, H0⟩, ⟨%d1, H1⟩, ⟨%d2, H2⟩, ⟨%d3, H3⟩, ⟨%d4, H4⟩⟩
      iapply ((runMid c (grid1.coords t) _ _ _ _ _ _ _ _ _ _ _ _ (fun h => h0 ((isFirst_iff t).mp h)) (fun h => h1 ((isLast_iff t).mp h)) (blk V c 0 t) (blk V c 1 t) (blk V c 2 t) (blk V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HR HS]
      · isplitl [HR]; · iexact HR
        unfold owns; iexists _; isplitr
        swap; · iexact HS
        ipureintro; exact View.read_writes_of_cover _ _ _ _ _ (coverMid c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W1, bigSep_W1]
  exact sound_body V c t

/-- What the launch hands the region is the invariant before the first point; after the last point the invariant
    gives it back (the accumulator's value forgotten). -/
theorem inv_in (c : Dev nD) : (Pipeline.ΦA spec1 c : sProp 𝕄) ⊢ (dat V c).Φ 0 := by
  rw [show (dat V c).Φ 0 = PhiS V c 0 (Nat.zero_le _) from rfl, PhiS_zero V c 0 _ rfl]
  exact classInv_split c
theorem inv_out (c : Dev nD) : (dat V c).Φ (Fin.last cfg1.N) ⊢ (Pipeline.ΦA spec1 c : sProp 𝕄) := by
  have hne : (Fin.last cfg1.N).val ≠ 0 := by rw [Fin.val_last]; have : cfg1.N = 512 := N_1; omega
  rw [show (dat V c).Φ (Fin.last cfg1.N) = PhiS V c (Fin.last cfg1.N).val (Nat.le_of_lt_succ (Fin.last cfg1.N).isLt) from rfl, PhiS_pos V c _ _ hne]
  iintro ⟨HR, HS⟩
  iapply (classInv_join c)
  isplitl [HR]; · iexact HR
  iexists _; iexact HS

end Cert.KernelIdeal.Reduce

end
-- ==== Proof.WholeRun.lean ====
/-
  The run of @main: two reshapes, the extraction region, the host lines that gather the sampled rows, the reduction
  region, and the reshape of the one-element result to a scalar. The core's buffer contents are followed from the
  launch memory through these five segments (a host stretch applies its operations; a region leaves its arrays at
  what its write-backs make of them and every other buffer alone); every weakly fair execution terminates, and the
  final memory holds every unscoped buffer at the last of these contents. The argument arrays are written by no
  segment, so they end as launched.
-/
import proofs.«168992_j31164282699885_2_alg».proof.Proof.ExtractRegion
import proofs.«168992_j31164282699885_2_alg».proof.Proof.ReduceRegion
import proofs.«168992_j31164282699885_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the extraction region: its arrays at what the pipeline leaves, every other buffer as entered. -/
def W2 (c : Dev nD) : Valuation τ sig (Elt F) :=
  Pipeline.withArrays spec0 c (W1 m ρ c) fun w => (Extract.dat (V1 m ρ) c).arrAt w cfg0.N
theorem W2_arr (c : Dev nD) (w : Fin cfg0.W) :
    W2 m ρ c (Proc.devRef .tc (Pipeline.arrRef spec0 w)) = (Extract.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Extract.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the reduction region. -/
def W4 (c : Dev nD) : Valuation τ sig (Elt F) :=
  Pipeline.withArrays spec1 c (W3 m ρ c) fun w => (Reduce.dat (V3 m ρ) c).arrAt w cfg1.N
theorem W4_arr (c : Dev nD) (w : Fin cfg1.W) :
    W4 m ρ c (Proc.devRef .tc (Pipeline.arrRef spec1 w)) = (Reduce.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Reduce.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Extract.dat (V1 m ρ) c
  | ⟨1, _⟩ => fun c => Reduce.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Extract.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reduce.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Reduce.dat (V3 m ρ) c).Φ 0 from rfl]
    have h := Reduce.inv_in (V3 m ρ) c; unfold Pipeline.ΦA at h
    iintro ⟨Hp, -, Hr⟩
    iapply h
    isplitl [Hr]; · iexact Hr
    iexact Hp
  hout c := by
    rw [Pipeline.ownSems0_none, show (pdats m ρ 1 c).Φ (Fin.last _) = (Reduce.dat (V3 m ρ) c).Φ (Fin.last cfg1.N) from rfl]
    have h := Reduce.inv_out (V3 m ρ) c; unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, faulting nowhere, and the final memory holds every unscoped
    buffer of every core at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Whole

end
-- ==== Proof.ReduceValue.lean ====
/-
  The reduction region's values. Every store of the body covers its whole one-element buffer, so what a case leaves
  is the stored payload itself: the accumulator after a point is the body's sum-and-add of the four input blocks over
  the accumulator it was handed (the zero block at the first point), and the result block after the last point is the
  accumulator times the body's constant. By induction on the point the accumulator is the chain
  a₀ = step(block 0, zero), aₙ₊₁ = step(block n+1, aₙ); the one write-back, at the last point, makes the one-element
  result array the constant's multiple of a₅₁₁.
-/
import proofs.«168992_j31164282699885_2_alg».proof.Proof.ReduceRegion
import Idealize.ShloMosaic.Lib.Pipeline.Value

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- A point in between leaves the accumulator at the body's step over what it was handed. -/
theorem accMid_eq (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : ¬isLast i) (x0 x1 x2 x3 : Vec F S8192x3 .f32) (xs : Vec F S1x1 .f32) :
    accMid c i arg1 harg1 arg2 harg2 arg3 harg3 arg4 harg4 arg5 harg5 arg6 harg6 hc0 hc1 x0 x1 x2 x3 xs = k1_pay2 x0 x1 x2 x3 xs := by
  unfold accMid
  rw [View.read_writes_eq_canon _ _ _ (coverMid c i arg1 harg1 arg2 harg2 arg3 harg3 arg4 harg4 arg5 harg5 arg6 harg6 hc0 hc1 x0 x1 x2 x3 xs)]
  unfold runMid
  dsimp only
  rw [View.canon_unit_zero hz]
  simp only [View.readAt_eq_ld, harg1.read_unread, harg2.read_unread, harg3.read_unread, harg4.read_unread, harg5.read_unread, harg6.read_unread, View.ld_unit_zero (S := S8192x3) hz, View.ld_unit_zero (S := S1x1) hz]

/-- The last point leaves the accumulator at the same step, -/
theorem accLast_eq (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) :
    accLast c i arg1 harg1 arg2 harg2 arg3 harg3 arg4 harg4 arg5 harg5 arg6 harg6 hc0 hc1 x0 x1 x2 x3 xs = k1_pay2 x0 x1 x2 x3 xs := by
  unfold accLast
  rw [View.read_writes_eq_canon _ _ _ (coverLastAcc c i arg1 harg1 arg2 harg2 arg3 harg3 arg4 harg4 arg5 harg5 arg6 harg6 hc0 hc1 x0 x1 x2 x3 xs)]
  unfold runLast
  dsimp only
  sl_unfold_words
  rw [View.canon_unit_zero hz]
  simp only [View.readAt_eq_ld, harg1.read_unread, harg2.read_unread, harg3.read_unread, harg4.read_unread, harg5.read_unread, harg6.read_unread, View.ld_unit_zero (S := S8192x3) hz, View.ld_unit_zero (S := S1x1) hz]

/-- and the result block at that accumulator times the body's constant (the accumulator is read back after its store). -/
theorem outLast_eq (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : ¬isFirst i) (hc1 : isLast i) (x0 x1 x2 x3 : Vec F S8192x3 .f32) (xs : Vec F S1x1 .f32) :
    outLast c i arg1 harg1 arg2 harg2 arg3 harg3 arg4 harg4 arg5 harg5 arg6 harg6 hc0 hc1 x0 x1 x2 x3 xs = k1_pay3 (k1_pay2 x0 x1 x2 x3 xs) := by
  unfold outLast
  rw [View.read_writes_eq_canon _ _ _ (coverLastOut c i arg1 harg1 arg2 harg2 arg3 harg3 arg4 harg4 arg5 harg5 arg6 harg6 hc0 hc1 x0 x1 x2 x3 xs)]
  unfold runLast
  dsimp only
  sl_unfold_words
  rw [View.canon_unit_zero hz, View.readCov_unit_zero (S := S1x1) _ hz]
  simp only [View.readAt_eq_ld, harg1.read_unread, harg2.read_unread, harg3.read_unread, harg4.read_unread, harg5.read_unread, harg6.read_unread, View.ld_unit_zero (S := S8192x3) hz, View.ld_unit_zero (S := S1x1) hz]

/-- The first point stores the zero block, reads it back, and leaves the step over it. -/
theorem accFirst_eq (c : Dev nD) (i : grid1.Coords) (arg1 : Memref sig .tc .vmem S8192x3 .f32) (harg1 : arg1.IsWhole) (arg2 : Memref sig .tc .vmem S8192x3 .f32) (harg2 : arg2.IsWhole) (arg3 : Memref sig .tc .vmem S8192x3 .f32) (harg3 : arg3.IsWhole) (arg4 : Memref sig .tc .vmem S8192x3 .f32) (harg4 : arg4.IsWhole) (arg5 : Memref sig .tc .vmem S1x1 .f32) (harg5 : arg5.IsWhole) (arg6 : Memref sig .tc .vmem S1x1 .f32) (harg6 : arg6.IsWhole) (hc0 : isFirst i) (hc1 : ¬isLast i) (x0 x1 x2 x3 : Vec F S8192x3 .f32) :
    accFirst c i arg1 harg1 arg2 harg2 arg3 harg3 arg4 harg4 arg5 harg5 arg6 harg6 hc0 hc1 x0 x1 x2 x3 = k1_pay2 x0 x1 x2 x3 (k1_pay1 (F := F)) := by
  unfold accFirst
  rw [View.read_writes_eq_canon _ _ _ (coverFirst c i arg1 harg1 arg2 harg2 arg3 harg3 arg4 harg4 arg5 harg5 arg6 harg6 hc0 hc1 x0 x1 x2 x3)]
  unfold runFirst
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, View.ld_unit_zero (S := S8192x3) hz, View.ld_unit_zero (S := S1x1) hz]

/-! ## The accumulator is a chain of steps -/

/-- The accumulator after point `n`: the step over the zero block at the first point, then over the value before. -/
def chain (c : Dev nD) : (n : ℕ) → n < cfg1.N → Vec F S1x1 .f32
  | 0, h => k1_pay2 (blk V c 0 ⟨0, h⟩) (blk V c 1 ⟨0, h⟩) (blk V c 2 ⟨0, h⟩) (blk V c 3 ⟨0, h⟩) (k1_pay1 (F := F))
  | n + 1, h => k1_pay2 (blk V c 0 ⟨n + 1, h⟩) (blk V c 1 ⟨n + 1, h⟩) (blk V c 2 ⟨n + 1, h⟩) (blk V c 3 ⟨n + 1, h⟩) (chain c n (Nat.lt_of_succ_lt h))

theorem state_acc (c : Dev nD) : ∀ (n : ℕ) (h : n < cfg1.N), (state V c n h).2 = chain V c n h
  | 0, h => by
    rw [state_first V c ⟨0, h⟩ rfl (by dsimp only; omega)]
    dsimp only
    rw [accFirst_eq]
    rfl
  | n + 1, h => by
    by_cases h1 : n + 1 = 511
    · rw [state_last V c ⟨n + 1, h⟩ (Nat.succ_ne_zero n) h1]
      dsimp only
      rw [accLast_eq]
      show k1_pay2 _ _ _ _ (state V c n _).2 = k1_pay2 _ _ _ _ (chain V c n _)
      rw [state_acc c n]
    · rw [state_mid V c ⟨n + 1, h⟩ (Nat.succ_ne_zero n) h1]
      dsimp only
      rw [accMid_eq]
      show k1_pay2 _ _ _ _ (state V c n _).2 = k1_pay2 _ _ _ _ (chain V c n _)
      rw [state_acc c n]

/-- After the last point the result block holds the constant's multiple of the accumulator. -/
theorem state_out (c : Dev nD) (n : ℕ) (h : n + 1 < cfg1.N) (h1 : n + 1 = 511) :
    (state V c (n + 1) h).1 = k1_pay3 (chain V c (n + 1) h) := by
  rw [state_last V c ⟨n + 1, h⟩ (Nat.succ_ne_zero n) h1]
  dsimp only
  rw [outLast_eq]
  show k1_pay3 (k1_pay2 _ _ _ _ (state V c n _).2) = k1_pay3 (k1_pay2 _ _ _ _ (chain V c n _))
  rw [state_acc V c n]

/-! ## The result array after the region -/

/-- The last grid point. -/
def tLast : Fin cfg1.N := ⟨510 + 1, by rw [show cfg1.N = 512 from N_1]; decide⟩

/-- What the one-element result array ends holding. -/
def result (c : Dev nD) : Buf (Elt F) ((c : Thread nD τ).loc main_v31) := k1_pay3 (chain V c (510 + 1) tLast.isLt)

/-- The one write-back, at the last point, writes it: the block is the whole array. -/
theorem flushed_eq (c : Dev nD) (t : Fin cfg1.N) (hf : (cfg1.win 4).flush t = true) :
    (dat V c).flushed 4 t = ((cfg1.win 4).blk t).view.read (Elt F) (result V c) := by
  have hN : cfg1.N = 512 := N_1
  have h3 : t.val = 511 := by have := (flush1_4 t).mp hf; have := t.isLt; omega
  obtain rfl : t = tLast := Fin.ext h3
  show (cfg1.win 4).cut (grid1.coords tLast) ((dat V c).after 4 tLast) = _
  rw [after_4]
  rw [show (state V c tLast.val tLast.isLt).1 = k1_pay3 (chain V c (510 + 1) tLast.isLt) from state_out V c 510 tLast.isLt rfl]
  have hz' : (fun a => win1_4.index tLast a * main_v31.ty.shape.size a) = fun _ => 0 := funext fun a => by fin_cases a <;> decide
  exact (Memref.read_access_unit_zero (Elt F) main_v31 hz' (fun a => by rw [congrFun hz' a]; simp) (result V c)).symm

theorem final (c : Dev nD) : (dat V c).arrAt 4 cfg1.N = result V c :=
  (dat V c).arrAt_eq_of_cover 4 (result V c) (flushed_eq V c) fun i =>
    ⟨tLast, (flush1_4 tLast).mpr rfl, by
      show i ∈ ((View.whole main_v31).slice (win1_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_4.index tLast 0 * win1_4.size 0 ≤ (i 0 : Nat) ∧ (i 0 : Nat) < win1_4.index tLast 0 * win1_4.size 0 + win1_4.xsize (grid1.coords tLast) 0
                  rw [show win1_4.index tLast 0 * win1_4.size 0 = 0 from by decide +kernel, show win1_4.xsize (grid1.coords tLast) 0 = 1 from by decide +kernel]; omega
      | ⟨1, _⟩ => show win1_4.index tLast 1 * win1_4.size 1 ≤ (i 1 : Nat) ∧ (i 1 : Nat) < win1_4.index tLast 1 * win1_4.size 1 + win1_4.xsize (grid1.coords tLast) 1
                  rw [show win1_4.index tLast 1 * win1_4.size 1 = 0 from by decide +kernel, show win1_4.xsize (grid1.coords tLast) 1 = 1 from by decide +kernel]; omega⟩

end Cert.KernelIdeal.Reduce

end
-- ==== Proof.ExtractValue.lean ====
/-
  The extraction region's values: each of the two result arrays ends, as a whole, at columns 3, 4, 5 of the matching
  nine-column input array — entry (r, j) of the result is entry (r, 3 + j) of the input. Point `t` writes back rows
  8192·t … 8192·t + 8191, which are those columns of the same rows of the input block, and the 512 points' blocks
  cover every row (row r is in the block of point r / 8192).
-/
import proofs.«168992_j31164282699885_2_alg».proof.Proof.ExtractRegion
import Idealize.ShloMosaic.Lib.Pipeline.Value

set_option maxRecDepth 16384

noncomputable section

namespace Cert.KernelIdeal.Extract

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- Entry (r, j) of a three-column array sits at (r, 3 + j) of the nine-column one. -/
abbrev col (i : S4194304x3.Idx) : S4194304x9.Idx := fun a => match a with
  | ⟨0, _⟩ => i 0
  | ⟨1, _⟩ => ⟨3 + (i 1).val, by have h : (i 1).val < 3 := (i 1).isLt; show _ < 9; omega⟩
/-- The same inside one block of 8192 rows. -/
abbrev col9 (j : S8192x3.Idx) : S8192x9.Idx := fun a => match a with
  | ⟨0, _⟩ => j 0
  | ⟨1, _⟩ => ⟨3 + (j 1).val, by have h : (j 1).val < 3 := (j 1).isLt; show _ < 9; omega⟩

/-- Columns 3, 4, 5 of a nine-column array. -/
abbrev midCols (a : S4194304x9.Idx → Elt F .f32) : S4194304x3.Idx → Elt F .f32 := fun i => a (col i)

/-- The body's stored values are columns 3, 4, 5 of the loaded block. -/
theorem k0_pay1_apply (x : Vec F S8192x9 .f32) (j : S8192x3.Idx) : k0_pay1 x j = x (col9 j) := by
  show extractStridedSlice S8192x3 ![0, 3] (shapeCast S8192x9 x shapeCasts_S8192x9_S8192x9) slices_S8192x9_o0_3_S8192x3 j = _
  rw [shapeCast_self]
  unfold extractStridedSlice
  refine congrArg x ?_
  funext a; apply Fin.ext
  match a with
  | ⟨0, _⟩ => show 0 + (j 0).val = (j 0).val; omega
  | ⟨1, _⟩ => rfl
theorem k0_pay2_apply (x : Vec F S8192x9 .f32) (j : S8192x3.Idx) : k0_pay2 x j = x (col9 j) := by
  show extractStridedSlice S8192x3 ![0, 3] (shapeCast S8192x9 x shapeCasts_S8192x9_S8192x9) slices_S8192x9_o0_3_S8192x3 j = _
  rw [shapeCast_self]
  unfold extractStridedSlice
  refine congrArg x ?_
  funext a; apply Fin.ext
  match a with
  | ⟨0, _⟩ => show 0 + (j 0).val = (j 0).val; omega
  | ⟨1, _⟩ => rfl

/-- The four windows' block indices at point `t` are (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back into result array 0: block `t` of the middle columns of input array 0. -/
theorem flushed2_eq (c : Dev nD) (t : Fin cfg0.N) :
    (dat V c).flushed 2 t = ((cfg0.win 2).blk t).view.read (Elt F) (midCols (V c main_v0)) := by
  show (cfg0.win 2).cut (grid0.coords t) ((dat V c).after 2 t) = _
  rw [after_2]
  unfold mid0
  rw [View.canon_unit_zero hz]
  simp only [View.ld_unit_zero (S := S8192x9) hz]
  obtain ⟨e0, e1, e2, e3, e4, e5, e6, e7⟩ := idx_facts t
  funext j
  refine Eq.trans (k0_pay1_apply (blk V c 0 t) j) ?_
  show V c main_v0 (((cfg0.win 0).blk t).view.emb (col9 j)) = V c main_v0 (col (((cfg0.win 2).blk t).view.emb j))
  refine congrArg (V c main_v0) ?_
  funext a; apply Fin.ext
  match a with
  | ⟨0, _⟩ => show win0_0.index t (0 : Fin 2) * 8192 + 1 * (j 0).val = win0_2.index t (0 : Fin 2) * 8192 + 1 * (j 0).val; omega
  | ⟨1, _⟩ => show win0_0.index t (1 : Fin 2) * 9 + 1 * (3 + (j 1).val) = 3 + (win0_2.index t (1 : Fin 2) * 3 + 1 * (j 1).val); omega

theorem mem_blk2 (t : Fin cfg0.N) (i : S4194304x3.Idx) :
    i ∈ ((cfg0.win 2).blk t).view.set ↔ ∀ a : Fin 2, win0_2.index t a * S8192x3.size a ≤ (i a).val ∧ (i a).val < win0_2.index t a * S8192x3.size a + S8192x3.size a := by
  show i ∈ ((View.whole main_v2_0).slice (win0_2.rect t)).set ↔ _
  rw [View.set_slice_whole, Rect.mem_set_unit]
  exact Iff.rfl

/-- Every row lies in the block of the point that is the row's number divided by 8192. -/
theorem rows_cover2 (i : S4194304x3.Idx) : ∃ t : Fin cfg0.N, (cfg0.win 2).flush t = true ∧ i ∈ ((cfg0.win 2).blk t).view.set := by
  have hi0 : (i 0).val < 4194304 := (i 0).isLt
  have hi1 : (i 1).val < 3 := (i 1).isLt
  have hN : cfg0.N = 512 := N_0
  refine ⟨⟨(i 0).val / 8192, by rw [hN]; omega⟩, flush0_2 _, ?_⟩
  rw [mem_blk2]
  obtain ⟨e0, e1, e2, e3, e4, e5, e6, e7⟩ := idx_facts ⟨(i 0).val / 8192, by rw [hN]; omega⟩
  intro a
  match a with
  | ⟨0, _⟩ => show win0_2.index _ (0 : Fin 2) * 8192 ≤ (i 0).val ∧ (i 0).val < win0_2.index _ (0 : Fin 2) * 8192 + 8192
              rw [e4]; dsimp only; omega
  | ⟨1, _⟩ => show win0_2.index _ (1 : Fin 2) * 3 ≤ (i 1).val ∧ (i 1).val < win0_2.index _ (1 : Fin 2) * 3 + 3
              rw [e5]; omega

/-- Result array 0 after the region: the middle columns of input array 0. -/
theorem final2 (c : Dev nD) : (dat V c).arrAt 2 cfg0.N = midCols (V c main_v0) :=
  (dat V c).arrAt_eq_of_cover 2 (midCols (V c main_v0)) (fun t _ => flushed2_eq V c t) (rows_cover2)

/-- What point `t` writes back into result array 1: block `t` of the middle columns of input array 1. -/
theorem flushed3_eq (c : Dev nD) (t : Fin cfg0.N) :
    (dat V c).flushed 3 t = ((cfg0.win 3).blk t).view.read (Elt F) (midCols (V c main_v1)) := by
  show (cfg0.win 3).cut (grid0.coords t) ((dat V c).after 3 t) = _
  rw [after_3]
  unfold mid1
  rw [View.canon_unit_zero hz]
  simp only [View.ld_unit_zero (S := S8192x9) hz]
  obtain ⟨e0, e1, e2, e3, e4, e5, e6, e7⟩ := idx_facts t
  funext j
  refine Eq.trans (k0_pay2_apply (blk V c 1 t) j) ?_
  show V c main_v1 (((cfg0.win 1).blk t).view.emb (col9 j)) = V c main_v1 (col (((cfg0.win 3).blk t).view.emb j))
  refine congrArg (V c main_v1) ?_
  funext a; apply Fin.ext
  match a with
  | ⟨0, _⟩ => show win0_1.index t (0 : Fin 2) * 8192 + 1 * (j 0).val = win0_3.index t (0 : Fin 2) * 8192 + 1 * (j 0).val; omega
  | ⟨1, _⟩ => show win0_1.index t (1 : Fin 2) * 9 + 1 * (3 + (j 1).val) = 3 + (win0_3.index t (1 : Fin 2) * 3 + 1 * (j 1).val); omega

theorem mem_blk3 (t : Fin cfg0.N) (i : S4194304x3.Idx) :
    i ∈ ((cfg0.win 3).blk t).view.set ↔ ∀ a : Fin 2, win0_3.index t a * S8192x3.size a ≤ (i a).val ∧ (i a).val < win0_3.index t a * S8192x3.size a + S8192x3.size a := by
  show i ∈ ((View.whole main_v2_1).slice (win0_3.rect t)).set ↔ _
  rw [View.set_slice_whole, Rect.mem_set_unit]
  exact Iff.rfl

/-- Every row lies in the block of the point that is the row's number divided by 8192. -/
theorem rows_cover3 (i : S4194304x3.Idx) : ∃ t : Fin cfg0.N, (cfg0.win 3).flush t = true ∧ i ∈ ((cfg0.win 3).blk t).view.set := by
  have hi0 : (i 0).val < 4194304 := (i 0).isLt
  have hi1 : (i 1).val < 3 := (i 1).isLt
  have hN : cfg0.N = 512 := N_0
  refine ⟨⟨(i 0).val / 8192, by rw [hN]; omega⟩, flush0_3 _, ?_⟩
  rw [mem_blk3]
  obtain ⟨e0, e1, e2, e3, e4, e5, e6, e7⟩ := idx_facts ⟨(i 0).val / 8192, by rw [hN]; omega⟩
  intro a
  match a with
  | ⟨0, _⟩ => show win0_3.index _ (0 : Fin 2) * 8192 ≤ (i 0).val ∧ (i 0).val < win0_3.index _ (0 : Fin 2) * 8192 + 8192
              rw [e6]; dsimp only; omega
  | ⟨1, _⟩ => show win0_3.index _ (1 : Fin 2) * 3 ≤ (i 1).val ∧ (i 1).val < win0_3.index _ (1 : Fin 2) * 3 + 3
              rw [e7]; omega

/-- Result array 1 after the region: the middle columns of input array 1. -/
theorem final3 (c : Dev nD) : (dat V c).arrAt 3 cfg0.N = midCols (V c main_v1) :=
  (dat V c).arrAt_eq_of_cover 3 (midCols (V c main_v1)) (fun t _ => flushed3_eq V c t) (rows_cover3)

end Cert.KernelIdeal.Extract

end
-- ==== Proof.PairLoss.lean ====
/-
  The mathematics both programs compute, over the extended reals. For two points a, b of 3-space, dist2 a b is the
  sum of the squared coordinate differences; a pair's error is (√dist2(a, b) − √dist2(c, d))². The loss is the mean of
  the errors over 4,194,304 pairs. One program sums all the errors and divides by 4194304; the other sums 512 blocks
  of 8192 errors into a running total and multiplies by 2⁻²². Both are the same extended real: a finite sum may be
  regrouped freely (addition of extended reals is commutative and associative, infinities included), and dividing by
  the real 2²² is multiplying by its inverse 2⁻²², which the second literal denotes exactly.
-/
import Idealize.ShloMosaic.PureOps.Ideal
import Idealize.ShloMosaic.PureOps.Ideal.Laws

noncomputable section

namespace Cert.PairLoss

open Idealize.ShloMosaic

/-- The squared distance of two points of 3-space. -/
def dist2 (a b : Fin 3 → EReal) : EReal := ∑ k : Fin 3, (a k - b k) * (a k - b k)

/-- The squared difference of the two distances of a sampled pair. -/
def pairErr (a b c d : Fin 3 → EReal) : EReal :=
  (Ideal.sqrt (dist2 a b) - Ideal.sqrt (dist2 c d)) * (Ideal.sqrt (dist2 a b) - Ideal.sqrt (dist2 c d))

/-- Row `r` of block `t`, among all the rows. -/
def rowOf (t : Fin 512) (r : Fin 8192) : Fin 4194304 := ⟨8192 * t.val + r.val, by have := t.isLt; have := r.isLt; omega⟩

/-- A sum over all the rows is the sum over the blocks of the sums over each block's rows. -/
theorem sum_rows {M : Type*} [AddCommMonoid M] (f : Fin 4194304 → M) :
    ∑ p, f p = ∑ t : Fin 512, ∑ r : Fin 8192, f (rowOf t r) := by
  have h := Equiv.sum_comp (finProdFinEquiv (m := 512) (n := 8192)) (fun p : Fin (512 * 8192) => f p)
  rw [← h, Fintype.sum_prod_type]
  refine Finset.sum_congr rfl fun t _ => Finset.sum_congr rfl fun r _ => congrArg f (Fin.ext ?_)
  show r.val + 8192 * t.val = 8192 * t.val + r.val
  omega

/-- A running total that starts at zero plus the first term and adds one term per step is the sum of the terms so far. -/
theorem running_total (a b : ℕ → EReal) (h0 : a 0 = 0 + b 0) (hs : ∀ n, a (n + 1) = a n + b (n + 1)) (n : ℕ) :
    a n = ∑ t ∈ Finset.range (n + 1), b t := by
  induction n with
  | zero => rw [h0, zero_add, Finset.sum_range_one]
  | succ n ih => rw [hs, ih]; exact (Finset.sum_range_succ b (n + 1)).symm

/-- The float `+0.0` denotes 0, -/
theorem zero_word : Ideal.ofBits .f32 0x00000000#32 = 0 := by
  simp [Ideal.ofBits, Ideal.ieee]
/-- the float `4194304.0` the real 2²², -/
theorem count_word : Ideal.ofBits .f32 0x4A800000#32 = ((4194304 : ℝ) : EReal) := by
  simp [Ideal.ofBits, Ideal.ieee, -EReal.coe_mul]; norm_num
/-- and the float `2.38418579e-7` exactly its inverse 2⁻²². -/
theorem inv_count_word : Ideal.ofBits .f32 0x34800000#32 = ((1 / 4194304 : ℝ) : EReal) := by
  simp [Ideal.ofBits, Ideal.ieee, -EReal.coe_mul]; norm_num

/-- The mean, both ways: a total times 2⁻²² is zero-plus-the-total divided by 2²². -/
theorem mean_eq (S : EReal) :
    S * Ideal.ofBits .f32 0x34800000#32 = Ideal.div (Ideal.ofBits .f32 0x00000000#32 + S) (Ideal.ofBits .f32 0x4A800000#32) := by
  rw [inv_count_word, count_word, zero_word, zero_add, Ideal.div_coe (by norm_num : (4194304 : ℝ) ≠ 0)]

end Cert.PairLoss

end
-- ==== Proof.LibColumnForms.lean ====
/-
  Two layout operations read at an index, for a COLUMN kept after a sum along the rows' lanes (a sum with its axis kept):
  a vector of length a viewed as an a × 1 column, and an a × 1 column broadcast across b lanes.
-/
import Idealize.ShloMosaic.Lib.Pipeline.Value
import Idealize.ShloMosaic.Lib.ValueIdx

noncomputable section

namespace Cert.BoxFilter.ColumnForms

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.BoxFilter.ColumnForms

end
-- ==== Proof.StepValue.lean ====
/-
  The reduction body's arithmetic, read index by index over the extended reals. For input blocks x0 … x3 (8192 rows of
  three coordinates each) and an accumulator xs, the body's step is xs plus the sum over the 8192 rows of the row's
  pair error — the squared difference of the two distances ‖x0ᵣ − x1ᵣ‖ and ‖x2ᵣ − x3ᵣ‖; the zero block the first
  point stores is 0; and the body's final scaling multiplies by the float 2⁻²².
-/
import proofs.«168992_j31164282699885_2_alg».proof.Proof.Gen.KernelIdeal.Skeleton
import proofs.«168992_j31164282699885_2_alg».proof.Proof.PairLoss
import proofs.«168992_j31164282699885_2_alg».proof.Proof.LibColumnForms
import Idealize.ShloMosaic.Lib.Pipeline.Value
import Idealize.ShloMosaic.Lib.ValueIdx
import Idealize.ShloMosaic.PureOps.Ideal.Laws

set_option maxRecDepth 16384

noncomputable section

namespace Cert.KernelIdeal.Reduce

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.PairLoss

/-- The squared length of each row's difference: the body's lane sum of the squared coordinate differences. -/
def rowSq (a b : Vec Ideal S8192x3 .f32) : FVec Ideal S8192 .f32 :=
  multiReduction .add [1] S8192 (mulf (subf a b) (subf a b)) 0x00000000#32 reduces_S8192x3_S8192 (.inl rfl) rfl

theorem rowSq_apply (a b : Vec Ideal S8192x3 .f32) (r : Fin 8192) :
    rowSq a b (ix1 r) = dist2 (fun k => a (ix2 r k)) (fun k => b (ix2 r k)) := by
  refine (Ideal.multiReduction_add_single (mulf (subf a b) (subf a b)) 0x00000000#32 reduces_S8192x3_S8192 (.inl rfl) rfl (ix1 r)).trans ?_
  unfold dist2
  refine Finset.sum_congr rfl fun k _ => ?_
  have e : reduces_S8192x3_S8192.lift (ix1 r) k = ix2 r k :=
    funext fun d => Fin.ext (by match d with | ⟨0, _⟩ => rfl | ⟨1, _⟩ => rfl)
  rw [e]
  rfl

/-- The column of pair errors of a block: per row, the squared difference of the two distances. -/
def errCol (x0 x1 x2 x3 : Vec Ideal S8192x3 .f32) : FVec Ideal S8192x1 .f32 :=
  mulf (subf (sqrt (shapeCast S8192x1 (rowSq x0 x1) shapeCasts_S8192_S8192x1)) (sqrt (shapeCast S8192x1 (rowSq x2 x3) shapeCasts_S8192_S8192x1)))
    (subf (sqrt (shapeCast S8192x1 (rowSq x0 x1) shapeCasts_S8192_S8192x1)) (sqrt (shapeCast S8192x1 (rowSq x2 x3) shapeCasts_S8192_S8192x1)))

theorem errCol_apply (x0 x1 x2 x3 : Vec Ideal S8192x3 .f32) (r : Fin 8192) (u : Fin 1) :
    errCol x0 x1 x2 x3 (ix2 r u)
      = pairErr (fun k => x0 (ix2 r k)) (fun k => x1 (ix2 r k)) (fun k => x2 (ix2 r k)) (fun k => x3 (ix2 r k)) := by
  have h01 : shapeCast S8192x1 (rowSq x0 x1) shapeCasts_S8192_S8192x1 (ix2 r u) = rowSq x0 x1 (ix1 r) :=
    Cert.BoxFilter.ColumnForms.shapeCast_a_a1_apply (rowSq x0 x1) shapeCasts_S8192_S8192x1 r u
  have h23 : shapeCast S8192x1 (rowSq x2 x3) shapeCasts_S8192_S8192x1 (ix2 r u) = rowSq x2 x3 (ix1 r) :=
    Cert.BoxFilter.ColumnForms.shapeCast_a_a1_apply (rowSq x2 x3) shapeCasts_S8192_S8192x1 r u
  show (Ideal.sqrt (shapeCast S8192x1 (rowSq x0 x1) shapeCasts_S8192_S8192x1 (ix2 r u)) - Ideal.sqrt (shapeCast S8192x1 (rowSq x2 x3) shapeCasts_S8192_S8192x1 (ix2 r u)))
      * (Ideal.sqrt (shapeCast S8192x1 (rowSq x0 x1) shapeCasts_S8192_S8192x1 (ix2 r u)) - Ideal.sqrt (shapeCast S8192x1 (rowSq x2 x3) shapeCasts_S8192_S8192x1 (ix2 r u))) = _
  rw [h01, h23, rowSq_apply, rowSq_apply]
  rfl

/-- The block's sum of pair errors, as the body's one-element block. -/
def blockSum (x0 x1 x2 x3 : Vec Ideal S8192x3 .f32) : FVec Ideal S1x1 .f32 :=
  shapeCast S1x1 (multiReduction .add [0] S1 (errCol x0 x1 x2 x3) 0x00000000#32 reduces_S8192x1_S1 (.inl rfl) rfl) shapeCasts_S1_S1x1

theorem blockSum_apply (x0 x1 x2 x3 : Vec Ideal S8192x3 .f32) (u v : Fin 1) :
    blockSum x0 x1 x2 x3 (ix2 u v)
      = ∑ r : Fin 8192, pairErr (fun k => x0 (ix2 r k)) (fun k => x1 (ix2 r k)) (fun k => x2 (ix2 r k)) (fun k => x3 (ix2 r k)) := by
  unfold blockSum
  refine (Cert.BoxFilter.ColumnForms.shapeCast_a_a1_apply _ shapeCasts_S1_S1x1 u v).trans ?_
  refine (Ideal.multiReduction_add_single (errCol x0 x1 x2 x3) 0x00000000#32 reduces_S8192x1_S1 (.inl rfl) rfl (ix1 u)).trans ?_
  refine Finset.sum_congr rfl fun r _ => ?_
  have e : reduces_S8192x1_S1.lift (ix1 u) r = ix2 r u :=
    funext fun d => Fin.ext (by match d with | ⟨0, _⟩ => rfl | ⟨1, _⟩ => rfl)
  rw [e]
  exact errCol_apply x0 x1 x2 x3 r u

/-- The body's step: the accumulator plus the block's sum. -/
theorem step_eq (x0 x1 x2 x3 : Vec Ideal S8192x3 .f32) (xs : Vec Ideal S1x1 .f32) :
    k1_pay2 x0 x1 x2 x3 xs = addf xs (blockSum x0 x1 x2 x3) := by
  unfold k1_pay2 blockSum errCol rowSq
  simp only [shapeCast_self]

theorem step_apply (x0 x1 x2 x3 : Vec Ideal S8192x3 .f32) (xs : Vec Ideal S1x1 .f32) (u v : Fin 1) :
    k1_pay2 x0 x1 x2 x3 xs (ix2 u v)
      = xs (ix2 u v) + ∑ r : Fin 8192, pairErr (fun k => x0 (ix2 r k)) (fun k => x1 (ix2 r k)) (fun k => x2 (ix2 r k)) (fun k => x3 (ix2 r k)) := by
  rw [step_eq]
  show xs (ix2 u v) + blockSum x0 x1 x2 x3 (ix2 u v) = _
  rw [blockSum_apply]

/-- The zero block is 0, -/
theorem zero_apply (j : S1x1.Idx) : (k1_pay1 (F := Ideal)) j = 0 := by
  unfold k1_pay1
  rw [shapeCast_self]
  show Ideal.ofBits .f32 0x00000000#32 = 0
  exact zero_word

/-- and the final scaling multiplies by the float 2⁻²². -/
theorem scale_apply (v : Vec Ideal S1x1 .f32) (j : S1x1.Idx) : k1_pay3 v j = v j * Ideal.ofBits .f32 0x34800000#32 := rfl

end Cert.KernelIdeal.Reduce

end
-- ==== Proof.KernelValue.lean ====
/-
  The idealized kernel's result as a function of its arguments. The reduction region reads, at point t, rows
  8192·t … 8192·t + 8191 of the four gathered arrays; so its accumulator after point n is the sum over the blocks
  t ≤ n of the block's sum of pair errors, the one-element result array is the total over all 4,194,304 pairs times
  the float 2⁻²², and the program's scalar result is that entry. The four gathered arrays are the host's gathers, by
  the two index arrays, of the two arrays the extraction region leaves — columns 3–5 of the flattened frames.
-/
import proofs.«168992_j31164282699885_2_alg».proof.Proof.WholeRun
import proofs.«168992_j31164282699885_2_alg».proof.Proof.ReduceValue
import proofs.«168992_j31164282699885_2_alg».proof.Proof.ExtractValue
import proofs.«168992_j31164282699885_2_alg».proof.Proof.StepValue
import Idealize.ShloMosaic.Lib.StableHlo.Run

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.PairLoss Cert.KernelIdeal.Whole

/-- Row `r` of block `t` among all the rows (reduced into range, so that it is defined for every `t`). -/
def rowN (t : ℕ) (r : Fin 8192) : Fin 4194304 := ⟨(8192 * t + r.val) % 4194304, Nat.mod_lt _ (by decide)⟩

/-- The four input windows' block indices at point `t` are (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section Region
variable (V : (c : Dev nD) → (b : Ref sig .tc) → Buf (Elt Ideal) ((c : Thread nD τ).loc b))

theorem blk0_apply (c : Dev nD) (t : Fin cfg1.N) (r : Fin 8192) (k : Fin 3) :
    Reduce.blk V c 0 t (ix2 r k) = V c main_v9 (ix2 (rowN t.val r) k) := by
  obtain ⟨e0, e1, e2, e3, e4, e5, e6, e7⟩ := idx_facts1 t
  have hN : t.val < 512 := lt_of_lt_of_eq t.isLt (show cfg1.N = 512 from N_1)
  show V c main_v9 (((cfg1.win 0).blk t).view.emb (ix2 r k)) = _
  refine congrArg (V c main_v9) ?_
  funext a; apply Fin.ext
  match a with
  | ⟨0, _⟩ => show win1_0.index t (0 : Fin 2) * 8192 + 1 * r.val = (8192 * t.val + r.val) % 4194304; rw [e0]; omega
  | ⟨1, _⟩ => show win1_0.index t (1 : Fin 2) * 3 + 1 * k.val = k.val; rw [e1]; omega
theorem blk1_apply (c : Dev nD) (t : Fin cfg1.N) (r : Fin 8192) (k : Fin 3) :
    Reduce.blk V c 1 t (ix2 r k) = V c main_v16 (ix2 (rowN t.val r) k) := by
  obtain ⟨e0, e1, e2, e3, e4, e5, e6, e7⟩ := idx_facts1 t
  have hN : t.val < 512 := lt_of_lt_of_eq t.isLt (show cfg1.N = 512 from N_1)
  show V c main_v16 (((cfg1.win 1).blk t).view.emb (ix2 r k)) = _
  refine congrArg (V c main_v16) ?_
  funext a; apply Fin.ext
  match a with
  | ⟨0, _⟩ => show win1_1.index t (0 : Fin 2) * 8192 + 1 * r.val = (8192 * t.val + r.val) % 4194304; rw [e2]; omega
  | ⟨1, _⟩ => show win1_1.index t (1 : Fin 2) * 3 + 1 * k.val = k.val; rw [e3]; omega
theorem blk2_apply (c : Dev nD) (t : Fin cfg1.N) (r : Fin 8192) (k : Fin 3) :
    Reduce.blk V c 2 t (ix2 r k) = V c main_v23 (ix2 (rowN t.val r) k) := by
  obtain ⟨e0, e1, e2, e3, e4, e5, e6, e7⟩ := idx_facts1 t
  have hN : t.val < 512 := lt_of_lt_of_eq t.isLt (show cfg1.N = 512 from N_1)
  show V c main_v23 (((cfg1.win 2).blk t).view.emb (ix2 r k)) = _
  refine congrArg (V c main_v23) ?_
  funext a; apply Fin.ext
  match a with
  | ⟨0, _⟩ => show win1_2.index t (0 : Fin 2) * 8192 + 1 * r.val = (8192 * t.val + r.val) % 4194304; rw [e4]; omega
  | ⟨1, _⟩ => show win1_2.index t (1 : Fin 2) * 3 + 1 * k.val = k.val; rw [e5]; omega
theorem blk3_apply (c : Dev nD) (t : Fin cfg1.N) (r : Fin 8192) (k : Fin 3) :
    Reduce.blk V c 3 t (ix2 r k) = V c main_v30 (ix2 (rowN t.val r) k) := by
  obtain ⟨e0, e1, e2, e3, e4, e5, e6, e7⟩ := idx_facts1 t
  have hN : t.val < 512 := lt_of_lt_of_eq t.isLt (show cfg1.N = 512 from N_1)
  show V c main_v30 (((cfg1.win 3).blk t).view.emb (ix2 r k)) = _
  refine congrArg (V c main_v30) ?_
  funext a; apply Fin.ext
  match a with
  | ⟨0, _⟩ => show win1_3.index t (0 : Fin 2) * 8192 + 1 * r.val = (8192 * t.val + r.val) % 4194304; rw [e6]; omega
  | ⟨1, _⟩ => show win1_3.index t (1 : Fin 2) * 3 + 1 * k.val = k.val; rw [e7]; omega

/-- Block `t`'s sum of pair errors, over four arrays of rows. -/
def blockErr (A B C D : S4194304x3.Idx → EReal) (t : ℕ) : EReal :=
  ∑ r : Fin 8192, pairErr (fun k => A (ix2 (rowN t r) k)) (fun k => B (ix2 (rowN t r) k)) (fun k => C (ix2 (rowN t r) k)) (fun k => D (ix2 (rowN t r) k))

/-- The accumulator after point `n` is the sum of the blocks' sums so far. -/
theorem chain_apply (c : Dev nD) : ∀ (n : ℕ) (h : n < cfg1.N),
    Reduce.chain V c n h (ix2 0 0) = ∑ t ∈ Finset.range (n + 1), blockErr (V c main_v9) (V c main_v16) (V c main_v23) (V c main_v30) t
  | 0, h => by
    show k1_pay2 (F := Ideal) _ _ _ _ (k1_pay1 (F := Ideal)) (ix2 0 0) = _
    rw [Reduce.step_apply, Reduce.zero_apply, zero_add, Finset.sum_range_one]
    unfold blockErr
    refine Finset.sum_congr rfl fun r _ => ?_
    simp only [blk0_apply, blk1_apply, blk2_apply, blk3_apply]
  | n + 1, h => by
    show k1_pay2 (F := Ideal) _ _ _ _ (Reduce.chain V c n _) (ix2 0 0) = _
    rw [Reduce.step_apply, chain_apply c n, Finset.sum_range_succ _ (n + 1)]
    refine congrArg (_ + ·) ?_
    unfold blockErr
    refine Finset.sum_congr rfl fun r _ => ?_
    simp only [blk0_apply, blk1_apply, blk2_apply, blk3_apply]

/-- The one-element result array: the total over all the pairs, times the float 2⁻²². -/
theorem result_apply (c : Dev nD) :
    Reduce.result V c (ix2 0 0)
      = (∑ p : Fin 4194304, pairErr (fun k => V c main_v9 (ix2 p k)) (fun k => V c main_v16 (ix2 p k)) (fun k => V c main_v23 (ix2 p k)) (fun k => V c main_v30 (ix2 p k)))
        * Ideal.ofBits .f32 0x34800000#32 := by
  unfold Reduce.result
  rw [Reduce.scale_apply]
  refine congrArg (· * Ideal.ofBits .f32 0x34800000#32) ?_
  refine (chain_apply V c (510 + 1) Reduce.tLast.isLt).trans ?_
  show ∑ t ∈ Finset.range 512, _ = _
  rw [Finset.sum_range, sum_rows]
  refine Finset.sum_congr rfl fun t _ => ?_
  unfold blockErr
  refine Finset.sum_congr rfl fun r _ => ?_
  have e : rowN t.val r = rowOf t r := Fin.ext (by
    show (8192 * t.val + r.val) % 4194304 = 8192 * t.val + r.val
    have := t.isLt; have := r.isLt; omega)
  rw [e]

end Region

variable (m : (ℓ : Loc nD τ sig) → Buf (Elt Ideal) ℓ) (ρ : Dev nD → PrngReg)

/-! ## The host stretches -/

/-- The index array as the gather takes it: a negative index raised by the number of rows, then set out as a column. -/
def wrapIdx (idx : (⟨S4194304, .i32⟩ : BufTy).Contents (Elt Ideal)) : (⟨S4194304x1, .i32⟩ : BufTy).Contents (Elt Ideal) :=
  broadcastInDim S4194304x1 ![0] bcast_S4194304_S4194304x1_0
    (select (cmpi CmpIPredicate.slt idx (broadcastInDim S4194304 ![] bcast_S_S4194304 (constantI S_ 32 0#32)))
      (addi idx (broadcastInDim S4194304 ![] bcast_S_S4194304 (constantI S_ 32 4194304#32))) idx)

/-- The rows of `x` the index array names. -/
def rowsAt (x : (⟨S4194304x3, .f32⟩ : BufTy).Contents (Elt Ideal)) (idx : (⟨S4194304, .i32⟩ : BufTy).Contents (Elt Ideal)) :
    (⟨S4194304x3, .f32⟩ : BufTy).Contents (Elt Ideal) :=
  Host.gather gather_S4194304x3_S4194304x1_S4194304x3_1_0_n_n_0_1_13 x (wrapIdx idx)

theorem flat0 (c : Dev nD) : (Whole.V1 m ρ c main_v0 : S4194304x9.Idx → EReal) = shapeCast S4194304x9 (m ((c : Thread nD τ).loc main_arg0)) shapeCasts_S4194304x3x3_S4194304x9 := by
  dsimp only [Whole.V1, Whole.W1, hostOps0]
  after_results
  rfl
theorem flat1 (c : Dev nD) : (Whole.V1 m ρ c main_v1 : S4194304x9.Idx → EReal) = shapeCast S4194304x9 (m ((c : Thread nD τ).loc main_arg1)) shapeCasts_S4194304x3x3_S4194304x9 := by
  dsimp only [Whole.V1, Whole.W1, hostOps0]
  after_results
  rfl

/-- The extraction region's two result arrays, from the arguments. -/
theorem mid_in (c : Dev nD) : (Whole.W2 m ρ c (Proc.devRef .tc main_v2_0) : S4194304x3.Idx → EReal)
    = Extract.midCols (shapeCast S4194304x9 (m ((c : Thread nD τ).loc main_arg0)) shapeCasts_S4194304x3x3_S4194304x9) :=
  ((Whole.W2_arr m ρ c 2).trans (Extract.final2 (Whole.V1 m ρ) c)).trans (congrArg Extract.midCols (flat0 m ρ c))
theorem mid_tg (c : Dev nD) : (Whole.W2 m ρ c (Proc.devRef .tc main_v2_1) : S4194304x3.Idx → EReal)
    = Extract.midCols (shapeCast S4194304x9 (m ((c : Thread nD τ).loc main_arg1)) shapeCasts_S4194304x3x3_S4194304x9) :=
  ((Whole.W2_arr m ρ c 3).trans (Extract.final3 (Whole.V1 m ρ) c)).trans (congrArg Extract.midCols (flat1 m ρ c))

/-- The index arguments reach the gathers as launched. -/
theorem left_kept (c : Dev nD) : Whole.W2 m ρ c (Proc.devRef .tc main_arg2) = m ((c : Thread nD τ).loc main_arg2) :=
  (Whole.W2_of_ne m ρ c main_arg2 (by decide)).trans (StableHlo.after_of_writes_sub hostOps0 _ hostOps0_writes (r := main_arg2) (by decide))
theorem right_kept (c : Dev nD) : Whole.W2 m ρ c (Proc.devRef .tc main_arg3) = m ((c : Thread nD τ).loc main_arg3) :=
  (Whole.W2_of_ne m ρ c main_arg3 (by decide)).trans (StableHlo.after_of_writes_sub hostOps0 _ hostOps0_writes (r := main_arg3) (by decide))

/-- The four gathered arrays the reduction region reads. -/
theorem gath9 (c : Dev nD) : (Whole.V3 m ρ c main_v9 : S4194304x3.Idx → EReal)
    = rowsAt (Whole.W2 m ρ c (Proc.devRef .tc main_v2_0)) (Whole.W2 m ρ c (Proc.devRef .tc main_arg2)) := by
  dsimp only [Whole.V3, Whole.W3, hostOps1]
  after_results
  rfl
set_option maxHeartbeats 3200000 in
theorem gath16 (c : Dev nD) : (Whole.V3 m ρ c main_v16 : S4194304x3.Idx → EReal)
    = rowsAt (Whole.W2 m ρ c (Proc.devRef .tc main_v2_0)) (Whole.W2 m ρ c (Proc.devRef .tc main_arg3)) := by
  dsimp only [Whole.V3, Whole.W3, hostOps1]
  after_results
  rfl
set_option maxHeartbeats 3200000 in
theorem gath23 (c : Dev nD) : (Whole.V3 m ρ c main_v23 : S4194304x3.Idx → EReal)
    = rowsAt (Whole.W2 m ρ c (Proc.devRef .tc main_v2_1)) (Whole.W2 m ρ c (Proc.devRef .tc main_arg2)) := by
  dsimp only [Whole.V3, Whole.W3, hostOps1]
  after_results
  rfl
set_option maxHeartbeats 3200000 in
theorem gath30 (c : Dev nD) : (Whole.V3 m ρ c main_v30 : S4194304x3.Idx → EReal)
    = rowsAt (Whole.W2 m ρ c (Proc.devRef .tc main_v2_1)) (Whole.W2 m ρ c (Proc.devRef .tc main_arg3)) := by
  dsimp only [Whole.V3, Whole.W3, hostOps1]
  after_results
  rfl

/-- The scalar result is the one entry of the reduction region's result array. -/
theorem scalar (c : Dev nD) : (Whole.W5 m ρ c (Proc.devRef .tc main_v32) : S_.Idx → EReal) ix0 = Reduce.result (Whole.V3 m ρ) c (ix2 0 0) := by
  have h1 : (Whole.W5 m ρ c (Proc.devRef .tc main_v32) : S_.Idx → EReal) = shapeCast S_ (Whole.V4 m ρ c main_v31) shapeCasts_S1x1_S_ := by
    dsimp only [Whole.W5, hostOps2]
    after_results
    rfl
  rw [h1]
  refine (shapeCast_apply (Whole.V4 m ρ c main_v31) shapeCasts_S1x1_S_ ix0 (ix2 0 0) ?_).trans ?_
  · show (S1x1.rowMajor (ix2 0 0)).val = (S_.rowMajor ix0).val
    rw [Shape.rowMajor_val_two]
    show (0 : ℕ) * _ + 0 = (Shape.rowMajorPi S_.size ix0).val
    rw [Shape.rowMajorPi_zero]
    simp
  · exact congrFun ((Whole.W4_arr m ρ c 4).trans (Reduce.final (Whole.V3 m ρ) c)) (ix2 0 0)

/-- THE KERNEL'S VALUE: the total of the pair errors over the gathered rows of the middle columns, times 2⁻²². -/
theorem value (c : Dev nD) :
    (Whole.W5 m ρ c (Proc.devRef .tc main_v32) : S_.Idx → EReal) ix0
      = (∑ p : Fin 4194304, pairErr
          (fun k => rowsAt (Extract.midCols (shapeCast S4194304x9 (m ((c : Thread nD τ).loc main_arg0)) shapeCasts_S4194304x3x3_S4194304x9)) (m ((c : Thread nD τ).loc main_arg2)) (ix2 p k))
          (fun k => rowsAt (Extract.midCols (shapeCast S4194304x9 (m ((c : Thread nD τ).loc main_arg0)) shapeCasts_S4194304x3x3_S4194304x9)) (m ((c : Thread nD τ).loc main_arg3)) (ix2 p k))
          (fun k => rowsAt (Extract.midCols (shapeCast S4194304x9 (m ((c : Thread nD τ).loc main_arg1)) shapeCasts_S4194304x3x3_S4194304x9)) (m ((c : Thread nD τ).loc main_arg2)) (ix2 p k))
          (fun k => rowsAt (Extract.midCols (shapeCast S4194304x9 (m ((c : Thread nD τ).loc main_arg1)) shapeCasts_S4194304x3x3_S4194304x9)) (m ((c : Thread nD τ).loc main_arg3)) (ix2 p k)))
        * Ideal.ofBits .f32 0x34800000#32 := by
  rw [scalar, result_apply, gath9, gath16, gath23, gath30, mid_in, mid_tg, left_kept, right_kept]

end Cert.KernelIdeal.Result

end
-- ==== Proof.RefValue.lean ====
/-
  The reference's result, read index by index over the extended reals (from the generated read-at-an-index lemmas):
  its one entry is the float zero plus the sum over the 4,194,304 pairs of the pair's error — the squared difference of
  the two distances between the gathered rows — divided by the float 4194304. The four gathered arrays stay unopened:
  they are the same gathers of the same rows in both programs.
-/
import proofs.«168992_j31164282699885_2_alg».proof.Proof.Gen.ReferenceIdeal.Run
import proofs.«168992_j31164282699885_2_alg».proof.Proof.Gen.ReferenceIdeal.Read
import proofs.«168992_j31164282699885_2_alg».proof.Proof.PairLoss
import Idealize.ShloMosaic.Lib.ValueIdx
import Idealize.ShloMosaic.PureOps.Ideal.Laws

noncomputable section

namespace Cert.ReferenceIdeal.RefValue

open Idealize.ShloMosaic Idealize.ShloMosaic.ValueIdx Cert.PairLoss
open Cert.ReferenceIdeal Cert.ReferenceIdeal.Gen Cert.ReferenceIdeal.Read

/-- The one-axis indices are the numbers below the extent. -/
def idx1Equiv (n : ℕ) : (⟨1, ![n]⟩ : Shape).Idx ≃ Fin n where
  toFun j := j 0
  invFun p := ix1 p
  left_inv j := (eq_ix1 j).symm
  right_inv _ := rfl

variable (x0 x1 : (⟨S4194304x3x3, .f32⟩ : BufTy).Contents (Elt Ideal)) (x2 x3 : (⟨S4194304, .i32⟩ : BufTy).Contents (Elt Ideal))

/-- The squared length of row `p` of the difference of the first pair of gathered arrays, -/
theorem normSq0 (p : Fin 4194304) :
    val_main_call0_v1 (F := Ideal) x0 x2 x3 (ix1 p)
      = dist2 (fun k => val_main_v10 (F := Ideal) x0 x2 (ix2 p k)) (fun k => val_main_v17 (F := Ideal) x0 x3 (ix2 p k)) := by
  rw [val_main_call0_v1_apply, val_main_call0_cst_apply]
  simp only [Ideal.ofBits_def]
  rw [zero_word, zero_add]
  unfold dist2
  refine Finset.sum_congr rfl fun k _ => ?_
  have e : idx_main_call0_v1 (ix1 p) k = ix2 p k := funext fun a => by match a with | ⟨0, _⟩ => rfl | ⟨1, _⟩ => rfl
  rw [e]
  rfl
/-- and of the second. -/
theorem normSq1 (p : Fin 4194304) :
    val_main_call1_v1 (F := Ideal) x1 x2 x3 (ix1 p)
      = dist2 (fun k => val_main_v26 (F := Ideal) x1 x2 (ix2 p k)) (fun k => val_main_v33 (F := Ideal) x1 x3 (ix2 p k)) := by
  rw [val_main_call1_v1_apply, val_main_call1_cst_apply]
  simp only [Ideal.ofBits_def]
  rw [zero_word, zero_add]
  unfold dist2
  refine Finset.sum_congr rfl fun k _ => ?_
  have e : idx_main_call1_v1 (ix1 p) k = ix2 p k := funext fun a => by match a with | ⟨0, _⟩ => rfl | ⟨1, _⟩ => rfl
  rw [e]
  rfl

/-- Entry `p` of the array the reference sums is the pair's error. -/
theorem err_apply (p : Fin 4194304) :
    val_main_v37 (F := Ideal) x0 x1 x2 x3 (ix1 p)
      = pairErr (fun k => val_main_v10 (F := Ideal) x0 x2 (ix2 p k)) (fun k => val_main_v17 (F := Ideal) x0 x3 (ix2 p k))
          (fun k => val_main_v26 (F := Ideal) x1 x2 (ix2 p k)) (fun k => val_main_v33 (F := Ideal) x1 x3 (ix2 p k)) := by
  rw [val_main_v37_apply, val_main_v36_apply, val_main_v19_apply, val_main_v35_apply, normSq0, normSq1]
  rfl

/-- The reference's one entry. -/
theorem value :
    val_main_v39 (F := Ideal) x0 x1 x2 x3 ix0
      = Ideal.div (Ideal.ofBits .f32 0x00000000#32 + ∑ p : Fin 4194304,
          pairErr (fun k => val_main_v10 (F := Ideal) x0 x2 (ix2 p k)) (fun k => val_main_v17 (F := Ideal) x0 x3 (ix2 p k))
            (fun k => val_main_v26 (F := Ideal) x1 x2 (ix2 p k)) (fun k => val_main_v33 (F := Ideal) x1 x3 (ix2 p k)))
          (Ideal.ofBits .f32 0x4A800000#32) := by
  rw [val_main_v39_apply, val_main_v38_apply, val_main_cst_7_apply, val_main_cst_apply]
  simp only [Ideal.hostDivf_def, Ideal.ofBits_def]
  refine congrArg (fun S => Ideal.div (Ideal.ofBits .f32 0x00000000#32 + S) (Ideal.ofBits .f32 0x4A800000#32)) ?_
  rw [← Equiv.sum_comp (idx1Equiv 4194304).symm]
  refine Finset.sum_congr rfl fun p _ => ?_
  exact err_apply x0 x1 x2 x3 p

end Cert.ReferenceIdeal.RefValue

end
-- ==== Proof.Bridge.lean ====
/-
  The two idealized programs compute one extended real. The array the extraction region leaves — columns 3, 4, 5 of
  the frames flattened to nine columns — is the reference's slice of the middle row of each 3×3 frame, reshaped to
  three columns: both read entry (r, 1, j) of the frame array at (r, j). The gathers by the two index arrays are the
  same host operations in both programs. So the pair errors are the same 4,194,304 extended reals, and their total
  times 2⁻²² is zero-plus-their-total divided by 2²².
-/
import proofs.«168992_j31164282699885_2_alg».proof.Proof.KernelValue
import proofs.«168992_j31164282699885_2_alg».proof.Proof.RefValue
import proofs.«168992_j31164282699885_2_alg».proof.Defs

noncomputable section

namespace Cert.Proof.Bridge

open Idealize.ShloMosaic Idealize.ShloMosaic.TcCoe Idealize.ShloMosaic.ValueIdx Idealize.SL.Sem Cert.PairLoss

/-- Columns 3–5 of the flattened frames are the middle rows of the frames. -/
theorem midCols_eq (x : (⟨Cert.KernelIdeal.S4194304x3x3, .f32⟩ : BufTy).Contents (Elt Ideal)) :
    Cert.KernelIdeal.Extract.midCols (shapeCast Cert.KernelIdeal.S4194304x9 x Cert.KernelIdeal.Facts₀.shapeCasts_S4194304x3x3_S4194304x9)
      = Cert.ReferenceIdeal.Read.val_main_v1 (F := Ideal) x := by
  funext i
  obtain ⟨p, k, rfl⟩ : ∃ (p : Fin 4194304) (k : Fin 3), i = ix2 p k := ⟨i 0, i 1, eq_ix2 i⟩
  rw [Cert.ReferenceIdeal.Read.val_main_v1_apply, Cert.ReferenceIdeal.Read.val_main_v0_apply]
  refine (shapeCast_apply x Cert.KernelIdeal.Facts₀.shapeCasts_S4194304x3x3_S4194304x9 (Cert.KernelIdeal.Extract.col (ix2 p k)) (ix3 p 1 k) ?_).trans (congrArg x ?_)
  · show ((⟨3, ![4194304, 3, 3]⟩ : Shape).rowMajor (ix3 p 1 k)).val = ((⟨2, ![4194304, 9]⟩ : Shape).rowMajor (Cert.KernelIdeal.Extract.col (ix2 p k))).val
    rw [Shape.rowMajor_val_three, Shape.rowMajor_val_two]
    show (p.val * 3 + 1) * 3 + k.val = p.val * 9 + (3 + k.val)
    omega
  · funext a; apply Fin.ext
    have hk : k.val < 3 := k.isLt
    match a with
    | ⟨0, _⟩ => show p.val = (p.val * 3 + k.val) / 3; omega
    | ⟨1, _⟩ => rfl
    | ⟨2, _⟩ => show k.val = (p.val * 3 + k.val) % 3; omega

variable (x0 x1 : (⟨Cert.KernelIdeal.S4194304x3x3, .f32⟩ : BufTy).Contents (Elt Ideal)) (x2 x3 : (⟨Cert.KernelIdeal.S4194304, .i32⟩ : BufTy).Contents (Elt Ideal))

/-- The four gathered arrays are the reference's. -/
theorem gathered_in_left : Cert.KernelIdeal.Result.rowsAt (Cert.KernelIdeal.Extract.midCols (shapeCast Cert.KernelIdeal.S4194304x9 x0 Cert.KernelIdeal.Facts₀.shapeCasts_S4194304x3x3_S4194304x9)) x2
    = Cert.ReferenceIdeal.Read.val_main_v10 (F := Ideal) x0 x2 := by
  rw [midCols_eq]; rfl
theorem gathered_in_right : Cert.KernelIdeal.Result.rowsAt (Cert.KernelIdeal.Extract.midCols (shapeCast Cert.KernelIdeal.S4194304x9 x0 Cert.KernelIdeal.Facts₀.shapeCasts_S4194304x3x3_S4194304x9)) x3
    = Cert.ReferenceIdeal.Read.val_main_v17 (F := Ideal) x0 x3 := by
  rw [midCols_eq]; rfl
theorem gathered_tg_left : Cert.KernelIdeal.Result.rowsAt (Cert.KernelIdeal.Extract.midCols (shapeCast Cert.KernelIdeal.S4194304x9 x1 Cert.KernelIdeal.Facts₀.shapeCasts_S4194304x3x3_S4194304x9)) x2
    = Cert.ReferenceIdeal.Read.val_main_v26 (F := Ideal) x1 x2 := by
  rw [midCols_eq]; rfl
theorem gathered_tg_right : Cert.KernelIdeal.Result.rowsAt (Cert.KernelIdeal.Extract.midCols (shapeCast Cert.KernelIdeal.S4194304x9 x1 Cert.KernelIdeal.Facts₀.shapeCasts_S4194304x3x3_S4194304x9)) x3
    = Cert.ReferenceIdeal.Read.val_main_v33 (F := Ideal) x1 x3 := by
  rw [midCols_eq]; rfl

end Cert.Proof.Bridge

end
-- ==== Proof.lean ====
/-
  The certificate of a sampled pairwise-distance loss. The kernel's program extracts the middle row of every 3×3
  frame of two arrays (first kernel launch: a copy of columns 3–5 of the frames flattened to nine columns), gathers
  the rows two index arrays name (host operations), and (second kernel launch) forms, for each of 4,194,304 pairs,
  the squared difference of the distance between the pair's rows in the first array and in the second, summing
  512 blocks of 8192 pairs into an accumulator it carries from grid point to grid point and scaling by 2⁻²² at the
  last point. The reference takes the same rows by the same gathers and averages the same squared differences with
  one sum and one division by 2²².

  Frames: both kernel programs (as printed at the word level, and idealized) run @main as three stretches of host
  operations around two launches; each launch's body is run once per case of its conditions, the accumulator's
  contents tracked point by point; the argument arrays are written by no segment. The reference's frame is its
  generated run. The ideal pass rewrote nothing. The two idealized programs end with the same extended real:
  the same pair errors, summed in one order or another, and a product with 2⁻²² against a quotient by 2²².
-/
import proofs.«168992_j31164282699885_2_alg».proof.Defs
import proofs.«168992_j31164282699885_2_alg».proof.Proof.Gen.Kernel
import proofs.«168992_j31164282699885_2_alg».proof.Proof.Gen.KernelIdeal
import proofs.«168992_j31164282699885_2_alg».proof.Proof.Gen.ReferenceIdeal
import proofs.«168992_j31164282699885_2_alg».proof.Proof.Gen.Pre_finite_inputs
import proofs.«168992_j31164282699885_2_alg».proof.Proof.Gen.ReferenceIdeal.Run
import proofs.«168992_j31164282699885_2_alg».proof.Proof.Gen.ReferenceIdeal.Read
import proofs.«168992_j31164282699885_2_alg».proof.Proof.WordWholeRun
import proofs.«168992_j31164282699885_2_alg».proof.Proof.WholeRun
import proofs.«168992_j31164282699885_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem Cert.PairLoss

theorem frame_k : Cert.frame_Kernel := fun m ρ _ => Cert.Kernel.Whole.frame m ρ
theorem frame_ki : Cert.frame_KernelIdeal := fun m ρ _ => Cert.KernelIdeal.Whole.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the mean of the pair errors: the kernel's as the total times 2⁻²², the
    reference's as zero plus the total, divided by 2²². -/
theorem algebraic : Cert.algebraic_KernelIdeal_ReferenceIdeal := by
  intro m ρ m' ρ' _ hagree
  refine ⟨fun c => Cert.KernelIdeal.Whole.W5 m ρ c (Proc.devRef .tc Cert.KernelIdeal.main_v32), ?_, ?_⟩
  · exact (θ_run Cert.KernelIdeal.defs _ _).mono (fun _ h c =>
      ⟨h c _ (Cert.KernelIdeal.Whole.mem_uc Cert.KernelIdeal.main_v32 (by decide)),
       (h c _ (Cert.KernelIdeal.Whole.mem_uc Cert.KernelIdeal.main_arg0 (by decide))).trans (Cert.KernelIdeal.Whole.W5_main_arg0 m ρ c),
       (h c _ (Cert.KernelIdeal.Whole.mem_uc Cert.KernelIdeal.main_arg1 (by decide))).trans (Cert.KernelIdeal.Whole.W5_main_arg1 m ρ c),
       (h c _ (Cert.KernelIdeal.Whole.mem_uc Cert.KernelIdeal.main_arg2 (by decide))).trans (Cert.KernelIdeal.Whole.W5_main_arg2 m ρ c),
       (h c _ (Cert.KernelIdeal.Whole.mem_uc Cert.KernelIdeal.main_arg3 (by decide))).trans (Cert.KernelIdeal.Whole.W5_main_arg3 m ρ c)⟩)
      (Cert.KernelIdeal.Whole.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, (hagree c).1, (hagree c).2.1, (hagree c).2.2.1, (hagree c).2.2.2]
    funext j
    obtain rfl := eq_ix0 j
    refine (Cert.ReferenceIdeal.RefValue.value _ _ _ _).trans ?_
    refine Eq.trans ?_ (Cert.KernelIdeal.Result.value m ρ c).symm
    rw [mean_eq, Bridge.gathered_in_left, Bridge.gathered_in_right, Bridge.gathered_tg_left, Bridge.gathered_tg_right]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
